-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x384x512x3 : Shape := ⟨4, ![64, 384, 512, 3]⟩
abbrev S_ : Shape := ⟨0, ![]⟩

class Facts : Prop where
  bcast_S_S64x384x512x3 : S_.BroadcastsInDim S64x384x512x3 (![] : Fin 0 → Fin S64x384x512x3.rank)
  reducesTo_S64x384x512x3_S_d0_1_2_3 : S64x384x512x3.ReducesTo [0, 1, 2, 3] S_
  h_S_ : 0 < S_.numel

variable [Facts]

def fn {F : FTy → Type} [FloatOps F] (main_arg0 : FVec F S64x384x512x3 .f32) : IVec S_ 1 :=
  let main_v0 : FVec F S64x384x512x3 .f32 := Host.absf main_arg0
  let main_cst : FVec F S_ .f32 := constant S_ .f32 0x7F800000#32
  let main_v1 : FVec F S64x384x512x3 .f32 := broadcastInDim S64x384x512x3 ![] bcast_S_S64x384x512x3 main_cst
  let main_v2 : IVec S64x384x512x3 1 := cmpf .olt main_v0 main_v1
  let main_c : IVec S_ 1 := constantI S_ 1 1#1
  let main_v3 : IVec S_ 1 := (fun x v => Host.reduce IntOp.andi x v reducesTo_S64x384x512x3_S_d0_1_2_3 h_S_) main_v2 main_c
  main_v3
-- ==== Kernel.lean ====
abbrev S64x384x512x3 : Shape := ⟨4, ![64, 384, 512, 3]⟩
abbrev S64x384x1536 : Shape := ⟨3, ![64, 384, 1536]⟩
abbrev S1x384x1536 : Shape := ⟨3, ![1, 384, 1536]⟩
abbrev S384x1536 : Shape := ⟨2, ![384, 1536]⟩
abbrev S1x1536 : Shape := ⟨2, ![1, 1536]⟩
abbrev S388x1536 : Shape := ⟨2, ![388, 1536]⟩
abbrev S384x3 : Shape := ⟨2, ![384, 3]⟩
abbrev S384x1548 : Shape := ⟨2, ![384, 1548]⟩

abbrev nBuf : Space → Nat
  | .hbm => 4
  | .vmem => 4
  | .smem => 0
  | _ => 0

abbrev bufTy : (tb : Table) → Fin (tcTables nBuf tb) → BufTy
  | .hbm, ⟨0, _⟩ => ⟨S64x384x512x3, .f32⟩
  | .hbm, ⟨1, _⟩ => ⟨S64x384x1536, .f32⟩
  | .hbm, ⟨2, _⟩ => ⟨S64x384x1536, .f32⟩
  | .hbm, ⟨3, _⟩ => ⟨S64x384x512x3, .f32⟩
  | .local _ .vmem, ⟨0, _⟩ => ⟨S1x384x1536, .f32⟩
  | .local _ .vmem, ⟨1, _⟩ => ⟨S1x384x1536, .f32⟩
  | .local _ .vmem, ⟨2, _⟩ => ⟨S1x384x1536, .f32⟩
  | .local _ .vmem, ⟨3, _⟩ => ⟨S1x384x1536, .f32⟩
  | _, _ => ⟨S64x384x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x384x512x3_S64x384x1536 : S64x384x512x3.ShapeCasts S64x384x1536
  inb_S1x384x1536_S1x384x1536_0_0_0 : ∀ a, (![0, 0, 0] : Fin 3 → Nat) a + S1x384x1536.size a ≤ S1x384x1536.size a
  h_S1x384x1536 : 0 < S1x384x1536.numel
  shapeCasts_S1x384x1536_S384x1536 : S1x384x1536.ShapeCasts S384x1536
  slices_S384x1536_o2_0_S1x1536 : S384x1536.Slices ![2, 0] S1x1536
  slices_S384x1536_o1_0_S1x1536 : S384x1536.Slices ![1, 0] S1x1536
  slices_S384x1536_o382_0_S1x1536 : S384x1536.Slices ![382, 0] S1x1536
  slices_S384x1536_o381_0_S1x1536 : S384x1536.Slices ![381, 0] S1x1536
  concatenates_S1x1536_S1x1536_S384x1536_S1x1536_S1x1536_S388x1536_d0 : Shape.Concatenates [S1x1536, S1x1536, S384x1536, S1x1536, S1x1536] S388x1536 0
  slices_S388x1536_o0_0_S384x1536 : S388x1536.Slices ![0, 0] S384x1536
  slices_S388x1536_o1_0_S384x1536 : S388x1536.Slices ![1, 0] S384x1536
  slices_S388x1536_o2_0_S384x1536 : S388x1536.Slices ![2, 0] S384x1536
  slices_S388x1536_o3_0_S384x1536 : S388x1536.Slices ![3, 0] S384x1536
  slices_S388x1536_o4_0_S384x1536 : S388x1536.Slices ![4, 0] S384x1536
  slices_S384x1536_o0_6_S384x3 : S384x1536.Slices ![0, 6] S384x3
  slices_S384x1536_o0_3_S384x3 : S384x1536.Slices ![0, 3] S384x3
  slices_S384x1536_o0_1530_S384x3 : S384x1536.Slices ![0, 1530] S384x3
  slices_S384x1536_o0_1527_S384x3 : S384x1536.Slices ![0, 1527] S384x3
  concatenates_S384x3_S384x3_S384x1536_S384x3_S384x3_S384x1548_d1 : Shape.Concatenates [S384x3, S384x3, S384x1536, S384x3, S384x3] S384x1548 1
  slices_S384x1548_o0_0_S384x1536 : S384x1548.Slices ![0, 0] S384x1536
  slices_S384x1548_o0_3_S384x1536 : S384x1548.Slices ![0, 3] S384x1536
  slices_S384x1548_o0_6_S384x1536 : S384x1548.Slices ![0, 6] S384x1536
  slices_S384x1548_o0_9_S384x1536 : S384x1548.Slices ![0, 9] S384x1536
  slices_S384x1548_o0_12_S384x1536 : S384x1548.Slices ![0, 12] S384x1536
  shapeCasts_S384x1536_S1x384x1536 : S384x1536.ShapeCasts S1x384x1536
  shapeCasts_S64x384x1536_S64x384x512x3 : S64x384x1536.ShapeCasts S64x384x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x1536.size a ≤ S64x384x1536.size a
  hwx0_0 : ∀ i : grid0.Coords, EltTy.bits .f32 = 32 ∨ (Rect.block (s := S64x384x1536) S1x384x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x384x1536.size a ≤ S64x384x1536.size a
  hwx0_1 : ∀ i : grid0.Coords, EltTy.bits .f32 = 32 ∨ (Rect.block (s := S64x384x1536) S1x384x1536.size (cc0_transform_1 i) (hinb0_1 i)).WholeWords (EltTy.packing .f32)

variable [Facts₀]

abbrev win0_0 : Pipeline.Window sig grid0 :=
  Pipeline.Window.ofSpec (Memref.whole main_v0) S1x384x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x384x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x384x512x3 : Shape := ⟨4, ![64, 384, 512, 3]⟩
abbrev S5 : Shape := ⟨1, ![5]⟩
abbrev S_ : Shape := ⟨0, ![]⟩
abbrev S64x1x512x3 : Shape := ⟨4, ![64, 1, 512, 3]⟩
abbrev S64x2x512x3 : Shape := ⟨4, ![64, 2, 512, 3]⟩
abbrev S64x386x512x3 : Shape := ⟨4, ![64, 386, 512, 3]⟩
abbrev S64x388x512x3 : Shape := ⟨4, ![64, 388, 512, 3]⟩
abbrev S1 : Shape := ⟨1, ![1]⟩
abbrev S64x384x1x3 : Shape := ⟨4, ![64, 384, 1, 3]⟩
abbrev S64x384x2x3 : Shape := ⟨4, ![64, 384, 2, 3]⟩
abbrev S64x384x514x3 : Shape := ⟨4, ![64, 384, 514, 3]⟩
abbrev S64x384x516x3 : Shape := ⟨4, ![64, 384, 516, 3]⟩

abbrev nBuf : Space → Nat
  | .hbm => 84
  | .vmem => 0
  | .smem => 0
  | _ => 0

abbrev bufTy : (tb : Table) → Fin (tcTables nBuf tb) → BufTy
  | .hbm, ⟨0, _⟩ => ⟨S64x384x512x3, .f32⟩
  | .hbm, ⟨1, _⟩ => ⟨S5, .f32⟩
  | .hbm, ⟨2, _⟩ => ⟨S_, .i32⟩
  | .hbm, ⟨3, _⟩ => ⟨S64x1x512x3, .f32⟩
  | .hbm, ⟨4, _⟩ => ⟨S64x2x512x3, .f32⟩
  | .hbm, ⟨5, _⟩ => ⟨S64x2x512x3, .f32⟩
  | .hbm, ⟨6, _⟩ => ⟨S64x386x512x3, .f32⟩
  | .hbm, ⟨7, _⟩ => ⟨S64x1x512x3, .f32⟩
  | .hbm, ⟨8, _⟩ => ⟨S64x2x512x3, .f32⟩
  | .hbm, ⟨9, _⟩ => ⟨S64x2x512x3, .f32⟩
  | .hbm, ⟨10, _⟩ => ⟨S64x388x512x3, .f32⟩
  | .hbm, ⟨11, _⟩ => ⟨S1, .f32⟩
  | .hbm, ⟨12, _⟩ => ⟨S_, .f32⟩
  | .hbm, ⟨13, _⟩ => ⟨S64x384x512x3, .f32⟩
  | .hbm, ⟨14, _⟩ => ⟨S64x384x512x3, .f32⟩
  | .hbm, ⟨15, _⟩ => ⟨S64x384x512x3, .f32⟩
  | .hbm, ⟨16, _⟩ => ⟨S_, .f32⟩
  | .hbm, ⟨17, _⟩ => ⟨S64x384x512x3, .f32⟩
  | .hbm, ⟨18, _⟩ => ⟨S64x384x512x3, .f32⟩
  | .hbm, ⟨19, _⟩ => ⟨S1, .f32⟩
  | .hbm, ⟨20, _⟩ => ⟨S_, .f32⟩
  | .hbm, ⟨21, _⟩ => ⟨S64x384x512x3, .f32⟩
  | .hbm, ⟨22, _⟩ => ⟨S64x384x512x3, .f32⟩
  | .hbm, ⟨23, _⟩ => ⟨S64x384x512x3, .f32⟩
  | .hbm, ⟨24, _⟩ => ⟨S64x384x512x3, .f32⟩
  | .hbm, ⟨25, _⟩ => ⟨S1, .f32⟩
  | .hbm, ⟨26, _⟩ => ⟨S_, .f32⟩
  | .hbm, ⟨27, _⟩ => ⟨S64x384x512x3, .f32⟩
  | .hbm, ⟨28, _⟩ => ⟨S64x384x512x3, .f32⟩
  | .hbm, ⟨29, _⟩ => ⟨S64x384x512x3, .f32⟩
  | .hbm, ⟨30, _⟩ => ⟨S64x384x512x3, .f32⟩
  | .hbm, ⟨31, _⟩ => ⟨S1, .f32⟩
  | .hbm, ⟨32, _⟩ => ⟨S_, .f32⟩
  | .hbm, ⟨33, _⟩ => ⟨S64x384x512x3, .f32⟩
  | .hbm, ⟨34, _⟩ => ⟨S64x384x512x3, .f32⟩
  | .hbm, ⟨35, _⟩ => ⟨S64x384x512x3, .f32⟩
  | .hbm, ⟨36, _⟩ => ⟨S64x384x512x3, .f32⟩
  | .hbm, ⟨37, _⟩ => ⟨S1, .f32⟩
  | .hbm, ⟨38, _⟩ => ⟨S_, .f32⟩
  | .hbm, ⟨39, _⟩ => ⟨S64x384x512x3, .f32⟩
  | .hbm, ⟨40, _⟩ => ⟨S64x384x512x3, .f32⟩
  | .hbm, ⟨41, _⟩ => ⟨S64x384x512x3, .f32⟩
  | .hbm, ⟨42, _⟩ => ⟨S64x384x512x3, .f32⟩
  | .hbm, ⟨43, _⟩ => ⟨S_, .i32⟩
  | .hbm, ⟨44, _⟩ => ⟨S64x384x1x3, .f32⟩
  | .hbm, ⟨45, _⟩ => ⟨S64x384x2x3, .f32⟩
  | .hbm, ⟨46, _⟩ => ⟨S64x384x2x3, .f32⟩
  | .hbm, ⟨47, _⟩ => ⟨S64x384x514x3, .f32⟩
  | .hbm, ⟨48, _⟩ => ⟨S64x384x1x3, .f32⟩
  | .hbm, ⟨49, _⟩ => ⟨S64x384x2x3, .f32⟩
  | .hbm, ⟨50, _⟩ => ⟨S64x384x2x3, .f32⟩
  | .hbm, ⟨51, _⟩ => ⟨S64x384x516x3, .f32⟩
  | .hbm, ⟨52, _⟩ => ⟨S1, .f32⟩
  | .hbm, ⟨53, _⟩ => ⟨S_, .f32⟩
  | .hbm, ⟨54, _⟩ => ⟨S64x384x512x3, .f32⟩
  | .hbm, ⟨55, _⟩ => ⟨S64x384x512x3, .f32⟩
  | .hbm, ⟨56, _⟩ => ⟨S64x384x512x3, .f32⟩
  | .hbm, ⟨57, _⟩ => ⟨S_, .f32⟩
  | .hbm, ⟨58, _⟩ => ⟨S64x384x512x3, .f32⟩
  | .hbm, ⟨59, _⟩ => ⟨S64x384x512x3, .f32⟩
  | .hbm, ⟨60, _⟩ => ⟨S1, .f32⟩
  | .hbm, ⟨61, _⟩ => ⟨S_, .f32⟩
  | .hbm, ⟨62, _⟩ => ⟨S64x384x512x3, .f32⟩
  | .hbm, ⟨63, _⟩ => ⟨S64x384x512x3, .f32⟩
  | .hbm, ⟨64, _⟩ => ⟨S64x384x512x3, .f32⟩
  | .hbm, ⟨65, _⟩ => ⟨S64x384x512x3, .f32⟩
  | .hbm, ⟨66, _⟩ => ⟨S1, .f32⟩
  | .hbm, ⟨67, _⟩ => ⟨S_, .f32⟩
  | .hbm, ⟨68, _⟩ => ⟨S64x384x512x3, .f32⟩
  | .hbm, ⟨69, _⟩ => ⟨S64x384x512x3, .f32⟩
  | .hbm, ⟨70, _⟩ => ⟨S64x384x512x3, .f32⟩
  | .hbm, ⟨71, _⟩ => ⟨S64x384x512x3, .f32⟩
  | .hbm, ⟨72, _⟩ => ⟨S1, .f32⟩
  | .hbm, ⟨73, _⟩ => ⟨S_, .f32⟩
  | .hbm, ⟨74, _⟩ => ⟨S64x384x512x3, .f32⟩
  | .hbm, ⟨75, _⟩ => ⟨S64x384x512x3, .f32⟩
  | .hbm, ⟨76, _⟩ => ⟨S64x384x512x3, .f32⟩
  | .hbm, ⟨77, _⟩ => ⟨S64x384x512x3, .f32⟩
  | .hbm, ⟨78, _⟩ => ⟨S1, .f32⟩
  | .hbm, ⟨79, _⟩ => ⟨S_, .f32⟩
  | .hbm, ⟨80, _⟩ => ⟨S64x384x512x3, .f32⟩
  | .hbm, ⟨81, _⟩ => ⟨S64x384x512x3, .f32⟩
  | .hbm, ⟨82, _⟩ => ⟨S64x384x512x3, .f32⟩
  | .hbm, ⟨83, _⟩ => ⟨S64x384x512x3, .f32⟩
  | _, _ => ⟨S64x384x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  slices_S64x384x512x3_S64x1x512x3_0_0_0_0 : S64x384x512x3.Slices ![0, 0, 0, 0] S64x1x512x3
  slices_S64x384x512x3_S64x2x512x3_0_1_0_0 : S64x384x512x3.Slices ![0, 1, 0, 0] S64x2x512x3
  concatenates_S64x2x512x3_S64x384x512x3_S64x386x512x3_d1 : Shape.Concatenates [S64x2x512x3, S64x384x512x3] S64x386x512x3 1
  slices_S64x386x512x3_S64x1x512x3_0_385_0_0 : S64x386x512x3.Slices ![0, 385, 0, 0] S64x1x512x3
  slices_S64x386x512x3_S64x2x512x3_0_383_0_0 : S64x386x512x3.Slices ![0, 383, 0, 0] S64x2x512x3
  concatenates_S64x386x512x3_S64x2x512x3_S64x388x512x3_d1 : Shape.Concatenates [S64x386x512x3, S64x2x512x3] S64x388x512x3 1
  slices_S5_S1_0 : S5.Slices ![0] S1
  shapeCasts_S1_S_ : S1.ShapeCasts S_
  slices_S64x388x512x3_S64x384x512x3_0_0_0_0 : S64x388x512x3.Slices ![0, 0, 0, 0] S64x384x512x3
  bcast_S_S64x384x512x3 : S_.BroadcastsInDim S64x384x512x3 (![] : Fin 0 → Fin S64x384x512x3.rank)
  slices_S5_S1_1 : S5.Slices ![1] S1
  slices_S64x388x512x3_S64x384x512x3_0_1_0_0 : S64x388x512x3.Slices ![0, 1, 0, 0] S64x384x512x3
  slices_S5_S1_2 : S5.Slices ![2] S1
  slices_S64x388x512x3_S64x384x512x3_0_2_0_0 : S64x388x512x3.Slices ![0, 2, 0, 0] S64x384x512x3
  slices_S5_S1_3 : S5.Slices ![3] S1
  slices_S64x388x512x3_S64x384x512x3_0_3_0_0 : S64x388x512x3.Slices ![0, 3, 0, 0] S64x384x512x3
  slices_S5_S1_4 : S5.Slices ![4] S1
  slices_S64x388x512x3_S64x384x512x3_0_4_0_0 : S64x388x512x3.Slices ![0, 4, 0, 0] S64x384x512x3
  slices_S64x384x512x3_S64x384x1x3_0_0_0_0 : S64x384x512x3.Slices ![0, 0, 0, 0] S64x384x1x3
  slices_S64x384x512x3_S64x384x2x3_0_0_1_0 : S64x384x512x3.Slices ![0, 0, 1, 0] S64x384x2x3
  concatenates_S64x384x2x3_S64x384x512x3_S64x384x514x3_d2 : Shape.Concatenates [S64x384x2x3, S64x384x512x3] S64x384x514x3 2
  slices_S64x384x514x3_S64x384x1x3_0_0_513_0 : S64x384x514x3.Slices ![0, 0, 513, 0] S64x384x1x3
  slices_S64x384x514x3_S64x384x2x3_0_0_511_0 : S64x384x514x3.Slices ![0, 0, 511, 0] S64x384x2x3
  concatenates_S64x384x514x3_S64x384x2x3_S64x384x516x3_d2 : Shape.Concatenates [S64x384x514x3, S64x384x2x3] S64x384x516x3 2
  slices_S64x384x516x3_S64x384x512x3_0_0_0_0 : S64x384x516x3.Slices ![0, 0, 0, 0] S64x384x512x3
  slices_S64x384x516x3_S64x384x512x3_0_0_1_0 : S64x384x516x3.Slices ![0, 0, 1, 0] S64x384x512x3
  slices_S64x384x516x3_S64x384x512x3_0_0_2_0 : S64x384x516x3.Slices ![0, 0, 2, 0] S64x384x512x3
  slices_S64x384x516x3_S64x384x512x3_0_0_3_0 : S64x384x516x3.Slices ![0, 0, 3, 0] S64x384x512x3
  slices_S64x384x516x3_S64x384x512x3_0_0_4_0 : S64x384x516x3.Slices ![0, 0, 4, 0] S64x384x512x3

variable [Facts₀]

class Facts : Prop extends Facts₀ where

variable [Facts]
-- ==== Proof.KernelStages.lean ====
/-
  The kernel body's arithmetic, stage by stage, as pure functions of one image.

  The body works on one image of the batch, staged as a block [1, 384, 1536] whose lanes hold the
  (column, channel) pairs of a row side by side.  It drops the unit axis, blurs along the rows,
  then along the columns, and puts the unit axis back:
    * PAD ROWS: rows 2 and 1 are put in front of the image and rows 382 and 381 behind it, by
      one concatenation of five pieces along the rows;
    * TAPS OVER ROWS: the five windows of the padded image at row offsets 0 … 4 are weighted by
      the taps and added from the left,  (((t0·P0 + t1·P1) + t2·P2) + t1·P3) + t0·P4;
    * PAD COLUMNS: the lane triples of columns 2 and 1 go in front and those of columns 510 and
      509 behind, again by one concatenation of five pieces, along the lanes;
    * TAPS OVER COLUMNS: the five windows at lane offsets 0, 3, 6, 9, 12, weighted and added.
  The functions are the printed operations in the printed order, for any float instance, and the
  value the body stores is their composition (`pay_eq`, by unfolding).
-/
import proofs.«140527_j59450937312003_1_alg».proof.Proof.Gen.KernelIdeal.Skeleton

noncomputable section

namespace Cert.KernelIdeal.Stages

open Cert.KernelIdeal Cert.KernelIdeal.Facts₀ Idealize.ShloMosaic

variable {F : FTy → Type} [FloatOps F]

/-- A tap spread over an image. -/
def tap (w : BitVec 32) : FVec F S384x1536 .f32 := broadcast S384x1536 (Scalar.ofBits .f32 w)

/-- The rows padded by reflection: rows 2, 1 in front, rows 382, 381 behind. -/
def padRows (v : FVec F S384x1536 .f32) : FVec F S388x1536 .f32 :=
  concatenate S388x1536 0
    [⟨S1x1536, extractStridedSlice S1x1536 ![2, 0] v slices_S384x1536_o2_0_S1x1536⟩,
     ⟨S1x1536, extractStridedSlice S1x1536 ![1, 0] v slices_S384x1536_o1_0_S1x1536⟩,
     ⟨S384x1536, v⟩,
     ⟨S1x1536, extractStridedSlice S1x1536 ![382, 0] v slices_S384x1536_o382_0_S1x1536⟩,
     ⟨S1x1536, extractStridedSlice S1x1536 ![381, 0] v slices_S384x1536_o381_0_S1x1536⟩]
    concatenates_S1x1536_S1x1536_S384x1536_S1x1536_S1x1536_S388x1536_d0

/-- The five row windows of the padded image weighted and added from the left. -/
def tapsRows (p : FVec F S388x1536 .f32) : FVec F S384x1536 .f32 :=
  addf (addf (addf (addf
    (mulf (tap 0x3D90EDF6#32) (extractStridedSlice S384x1536 ![0, 0] p slices_S388x1536_o0_0_S384x1536))
    (mulf (tap 0x3E7A53D4#32) (extractStridedSlice S384x1536 ![1, 0] p slices_S388x1536_o1_0_S384x1536)))
    (mulf (tap 0x3EBD3532#32) (extractStridedSlice S384x1536 ![2, 0] p slices_S388x1536_o2_0_S384x1536)))
    (mulf (tap 0x3E7A53D4#32) (extractStridedSlice S384x1536 ![3, 0] p slices_S388x1536_o3_0_S384x1536)))
    (mulf (tap 0x3D90EDF6#32) (extractStridedSlice S384x1536 ![4, 0] p slices_S388x1536_o4_0_S384x1536))

/-- The columns padded by reflection, in lanes: columns 2, 1 in front, columns 510, 509 behind. -/
def padCols (y : FVec F S384x1536 .f32) : FVec F S384x1548 .f32 :=
  concatenate S384x1548 1
    [⟨S384x3, extractStridedSlice S384x3 ![0, 6] y slices_S384x1536_o0_6_S384x3⟩,
     ⟨S384x3, extractStridedSlice S384x3 ![0, 3] y slices_S384x1536_o0_3_S384x3⟩,
     ⟨S384x1536, y⟩,
     ⟨S384x3, extractStridedSlice S384x3 ![0, 1530] y slices_S384x1536_o0_1530_S384x3⟩,
     ⟨S384x3, extractStridedSlice S384x3 ![0, 1527] y slices_S384x1536_o0_1527_S384x3⟩]
    concatenates_S384x3_S384x3_S384x1536_S384x3_S384x3_S384x1548_d1

/-- The five column windows of the padded image (three lanes apart) weighted and added from the left. -/
def tapsCols (p : FVec F S384x1548 .f32) : FVec F S384x1536 .f32 :=
  addf (addf (addf (addf
    (mulf (tap 0x3D90EDF6#32) (extractStridedSlice S384x1536 ![0, 0] p slices_S384x1548_o0_0_S384x1536))
    (mulf (tap 0x3E7A53D4#32) (extractStridedSlice S384x1536 ![0, 3] p slices_S384x1548_o0_3_S384x1536)))
    (mulf (tap 0x3EBD3532#32) (extractStridedSlice S384x1536 ![0, 6] p slices_S384x1548_o0_6_S384x1536)))
    (mulf (tap 0x3E7A53D4#32) (extractStridedSlice S384x1536 ![0, 9] p slices_S384x1548_o0_9_S384x1536)))
    (mulf (tap 0x3D90EDF6#32) (extractStridedSlice S384x1536 ![0, 12] p slices_S384x1548_o0_12_S384x1536))

/-- What the body stores for an input block: the unit axis dropped, both passes, the unit axis put back. -/
def body (v0 : Vec F S1x384x1536 .f32) : FVec F S1x384x1536 .f32 :=
  shapeCast S1x384x1536
    (tapsCols (padCols (tapsRows (padRows (shapeCast S384x1536 v0 shapeCasts_S1x384x1536_S384x1536)))))
    shapeCasts_S384x1536_S1x384x1536

/-- The stored value is the composition of the stages. -/
theorem pay_eq (v0 : Vec F S1x384x1536 .f32) :
    Cert.KernelIdeal.Gen.k0_pay1 (Cert.KernelIdeal.Gen.k0_pay3 v0) (Cert.KernelIdeal.Gen.k0_pay4 v0) = body v0 := rfl

end Cert.KernelIdeal.Stages

end
-- ==== Proof.BlurSpec.lean ====
/-
  The separable five-tap blur with the reflect-101 border, as plain functions on extended reals.

  Along an axis of extent n the border rule reads position p of the padded axis (0 ≤ p < n + 4) at
  source position  refl n p :  2 - p  for p < 2,  p - 2  for 2 ≤ p < n + 2,  2n - p  beyond — the
  sequence 2, 1, 0, 1, …, n-1, n-2, n-3.  One pass replaces an entry by
      t0·a0 + t1·a1 + t2·a2 + t1·a3 + t0·a4        (added from the left)
  where a0 … a4 are the padded entries at offsets 0 … 4 from it.  The blur is the pass along the
  rows (extent 384) followed by the pass along the columns (extent 512), channel by channel.

  Two layouts of one image are used.  In the array [64, 384, 512, 3] a pixel's channel c of column
  w is entry (w, c); one image cut out and flattened to [384, 1536] holds it at lane 3w + c, so a
  step of one column is a step of three lanes and the column reflection becomes the lane map
  l ↦ 3·refl 512 (l / 3) + l % 3.  `lanes_eq` says the blur computed in the lane layout is the blur
  computed in the pixel layout.
-/
import Idealize.ShloMosaic.PureOps.Ideal
import Idealize.ShloMosaic.Lib.ValueIdx

noncomputable section

namespace Cert.Blur

open Idealize.ShloMosaic Idealize.ShloMosaic.ValueIdx

/-! ## The reflection -/

/-- Source position of padded position `p` on an axis of extent `n`. -/
def refl (n p : ℕ) : ℕ := if p < 2 then 2 - p else if p < n + 2 then p - 2 else 2 * n - p

theorem refl_lt {n p : ℕ} (hn : 3 ≤ n) (hp : p < n + 4) : refl n p < n := by
  unfold refl; split_ifs <;> omega

theorem refl_front {n p : ℕ} (hp : p < 2) : refl n p = 2 - p := by
  unfold refl; rw [if_pos hp]
theorem refl_mid {n p : ℕ} (h2 : 2 ≤ p) (hp : p < n + 2) : refl n p = p - 2 := by
  unfold refl; rw [if_neg (by omega), if_pos hp]
theorem refl_back {n p : ℕ} (hp : n + 2 ≤ p) : refl n p = 2 * n - p := by
  unfold refl; rw [if_neg (by omega), if_neg (by omega)]

/-- The row a padded row reads. -/
def reflRow (p : Fin 388) : Fin 384 := ⟨refl 384 p.val, refl_lt (by omega) (by have := p.isLt; omega)⟩
/-- The column a padded column reads. -/
def reflCol (q : Fin 516) : Fin 512 := ⟨refl 512 q.val, refl_lt (by omega) (by have := q.isLt; omega)⟩
/-- The lane a padded lane reads: the column reflected, the channel kept. -/
def reflLane (l : Fin 1548) : Fin 1536 := ⟨3 * refl 512 (l.val / 3) + l.val % 3, by
  have := refl_lt (n := 512) (p := l.val / 3) (by omega) (by have := l.isLt; omega); omega⟩

theorem reflRow_val (p : Fin 388) : (reflRow p).val = refl 384 p.val := rfl
theorem reflCol_val (q : Fin 516) : (reflCol q).val = refl 512 q.val := rfl
theorem reflLane_val (l : Fin 1548) : (reflLane l).val = 3 * refl 512 (l.val / 3) + l.val % 3 := rfl

/-! The reflections case by case, as the two paddings meet them. -/

theorem reflRow_front (p : Fin 388) (h : p.val < 2) : (reflRow p).val = 2 - p.val := refl_front h
theorem reflRow_mid (p : Fin 388) (h2 : 2 ≤ p.val) (h : p.val < 386) : (reflRow p).val = p.val - 2 := refl_mid h2 (by omega)
theorem reflRow_back (p : Fin 388) (h : 386 ≤ p.val) : (reflRow p).val = 768 - p.val := by
  rw [reflRow_val, refl_back (by omega)]
theorem reflCol_front (q : Fin 516) (h : q.val < 2) : (reflCol q).val = 2 - q.val := refl_front h
theorem reflCol_mid (q : Fin 516) (h2 : 2 ≤ q.val) (h : q.val < 514) : (reflCol q).val = q.val - 2 := refl_mid h2 (by omega)
theorem reflCol_back (q : Fin 516) (h : 514 ≤ q.val) : (reflCol q).val = 1024 - q.val := by
  rw [reflCol_val, refl_back (by omega)]

/-- Lanes 0 … 2 (column 0) read column 2: lanes 6 … 8. -/
theorem reflLane_c0 (l : Fin 1548) (h : l.val < 3) : (reflLane l).val = 6 + l.val := by
  have e : l.val / 3 = 0 := by omega
  rw [reflLane_val, e, refl_front (by omega)]; omega
/-- Lanes 3 … 5 (column 1) read column 1: themselves. -/
theorem reflLane_c1 (l : Fin 1548) (h3 : 3 ≤ l.val) (h : l.val < 6) : (reflLane l).val = l.val := by
  have e : l.val / 3 = 1 := by omega
  rw [reflLane_val, e, refl_front (by omega)]; omega
/-- Lanes 6 … 1541 (columns 2 … 513) read two columns back: six lanes back. -/
theorem reflLane_mid (l : Fin 1548) (h6 : 6 ≤ l.val) (h : l.val < 1542) : (reflLane l).val = l.val - 6 := by
  rw [reflLane_val, refl_mid (by omega) (by omega)]; omega
/-- Lanes 1542 … 1544 (column 514) read column 510: twelve lanes back. -/
theorem reflLane_c514 (l : Fin 1548) (h1 : 1542 ≤ l.val) (h : l.val < 1545) : (reflLane l).val = l.val - 12 := by
  have e : l.val / 3 = 514 := by omega
  rw [reflLane_val, e, refl_back (by omega)]; omega
/-- Lanes 1545 … 1547 (column 515) read column 509: eighteen lanes back. -/
theorem reflLane_c515 (l : Fin 1548) (h1 : 1545 ≤ l.val) : (reflLane l).val = l.val - 18 := by
  have hl := l.isLt
  have e : l.val / 3 = 515 := by omega
  rw [reflLane_val, e, refl_back (by omega)]; omega

/-! ## The taps -/

def t0 : EReal := Ideal.ofBits .f32 0x3D90EDF6#32
def t1 : EReal := Ideal.ofBits .f32 0x3E7A53D4#32
def t2 : EReal := Ideal.ofBits .f32 0x3EBD3532#32

/-- One output entry of a pass from the five padded entries it reads. -/
def taps5 (a0 a1 a2 a3 a4 : EReal) : EReal := t0 * a0 + t1 * a1 + t2 * a2 + t1 * a3 + t0 * a4

/-! ## Positions a pass reads -/

/-- Padded row `h + k`. -/
def rowAt (h : Fin 384) (k : ℕ) (hk : k < 5) : Fin 388 := ⟨h.val + k, by have := h.isLt; omega⟩
/-- Padded column `w + k`. -/
def colAt (w : Fin 512) (k : ℕ) (hk : k < 5) : Fin 516 := ⟨w.val + k, by have := w.isLt; omega⟩
/-- Padded lane `l + 3k`. -/
def laneAt (l : Fin 1536) (k : ℕ) (hk : k < 5) : Fin 1548 := ⟨l.val + 3 * k, by have := l.isLt; omega⟩
/-- The lane of column `w`, channel `c`. -/
def lane (w : Fin 512) (c : Fin 3) : Fin 1536 := ⟨3 * w.val + c.val, by have := w.isLt; have := c.isLt; omega⟩
/-- The column of a lane. -/
def colOf (l : Fin 1536) : Fin 512 := ⟨l.val / 3, by have := l.isLt; omega⟩
/-- The channel of a lane. -/
def chanOf (l : Fin 1536) : Fin 3 := ⟨l.val % 3, by omega⟩

/-! ## The pixel layout -/

/-- The pass along the rows, at image `b`, row `h`, column `w`, channel `c`. -/
def rowsAt (x : Fin 64 → Fin 384 → Fin 512 → Fin 3 → EReal) (b : Fin 64) (h : Fin 384) (w : Fin 512) (c : Fin 3) : EReal :=
  taps5 (x b (reflRow (rowAt h 0 (by omega))) w c) (x b (reflRow (rowAt h 1 (by omega))) w c)
    (x b (reflRow (rowAt h 2 (by omega))) w c) (x b (reflRow (rowAt h 3 (by omega))) w c)
    (x b (reflRow (rowAt h 4 (by omega))) w c)

/-- The pass along the columns. -/
def colsAt (y : Fin 64 → Fin 384 → Fin 512 → Fin 3 → EReal) (b : Fin 64) (h : Fin 384) (w : Fin 512) (c : Fin 3) : EReal :=
  taps5 (y b h (reflCol (colAt w 0 (by omega))) c) (y b h (reflCol (colAt w 1 (by omega))) c)
    (y b h (reflCol (colAt w 2 (by omega))) c) (y b h (reflCol (colAt w 3 (by omega))) c)
    (y b h (reflCol (colAt w 4 (by omega))) c)

/-- The blur at a pixel's channel. -/
def blurAt (x : Fin 64 → Fin 384 → Fin 512 → Fin 3 → EReal) (b : Fin 64) (h : Fin 384) (w : Fin 512) (c : Fin 3) : EReal :=
  colsAt (rowsAt x) b h w c

/-- The blurred batch as an array. -/
def blur (X : (⟨4, ![64, 384, 512, 3]⟩ : Shape).Idx → EReal) : (⟨4, ![64, 384, 512, 3]⟩ : Shape).Idx → EReal :=
  fun i => blurAt (fun b h w c => X (ix4 b h w c)) (i 0) (i 1) (i 2) (i 3)

theorem blur_ix4 (X : (⟨4, ![64, 384, 512, 3]⟩ : Shape).Idx → EReal) (b : Fin 64) (h : Fin 384) (w : Fin 512) (c : Fin 3) :
    blur X (ix4 b h w c) = blurAt (fun b h w c => X (ix4 b h w c)) b h w c := rfl

/-! ## The lane layout of one image -/

/-- The pass along the rows of one image held as [384, 1536]. -/
def rows2 (img : Fin 384 → Fin 1536 → EReal) (h : Fin 384) (l : Fin 1536) : EReal :=
  taps5 (img (reflRow (rowAt h 0 (by omega))) l) (img (reflRow (rowAt h 1 (by omega))) l)
    (img (reflRow (rowAt h 2 (by omega))) l) (img (reflRow (rowAt h 3 (by omega))) l)
    (img (reflRow (rowAt h 4 (by omega))) l)

/-- The pass along the columns in lanes: a column step is three lanes. -/
def cols2 (y : Fin 384 → Fin 1536 → EReal) (h : Fin 384) (l : Fin 1536) : EReal :=
  taps5 (y h (reflLane (laneAt l 0 (by omega)))) (y h (reflLane (laneAt l 1 (by omega))))
    (y h (reflLane (laneAt l 2 (by omega)))) (y h (reflLane (laneAt l 3 (by omega))))
    (y h (reflLane (laneAt l 4 (by omega))))

/-- The blur of one image in lanes. -/
def blur2 (img : Fin 384 → Fin 1536 → EReal) (h : Fin 384) (l : Fin 1536) : EReal := cols2 (rows2 img) h l

/-- Image `b` of a batch, in lanes. -/
def imageOf (x : Fin 64 → Fin 384 → Fin 512 → Fin 3 → EReal) (b : Fin 64) : Fin 384 → Fin 1536 → EReal :=
  fun h l => x b h (colOf l) (chanOf l)

/-- The row pass does not see the layout of a row. -/
theorem rows2_imageOf (x : Fin 64 → Fin 384 → Fin 512 → Fin 3 → EReal) (b : Fin 64) (h : Fin 384) (l : Fin 1536) :
    rows2 (imageOf x b) h l = rowsAt x b h (colOf l) (chanOf l) := rfl

/-- A padded lane `3k` further on is the padded column `k` further on, same channel; so is what it reads. -/
theorem reflLane_laneAt (w : Fin 512) (c : Fin 3) (k : ℕ) (hk : k < 5) :
    (reflLane (laneAt (lane w c) k hk)).val = 3 * (reflCol (colAt w k hk)).val + c.val := by
  have hw := w.isLt; have hc := c.isLt
  have e1 : (3 * w.val + c.val + 3 * k) / 3 = w.val + k := by omega
  have e2 : (3 * w.val + c.val + 3 * k) % 3 = c.val := by omega
  show 3 * refl 512 ((3 * w.val + c.val + 3 * k) / 3) + (3 * w.val + c.val + 3 * k) % 3 = 3 * refl 512 (w.val + k) + c.val
  rw [e1, e2]

theorem colOf_reflLane (w : Fin 512) (c : Fin 3) (k : ℕ) (hk : k < 5) :
    colOf (reflLane (laneAt (lane w c) k hk)) = reflCol (colAt w k hk) := by
  apply Fin.ext
  have := reflLane_laneAt w c k hk
  have hc := c.isLt
  show (reflLane (laneAt (lane w c) k hk)).val / 3 = _
  omega

theorem chanOf_reflLane (w : Fin 512) (c : Fin 3) (k : ℕ) (hk : k < 5) :
    chanOf (reflLane (laneAt (lane w c) k hk)) = c := by
  apply Fin.ext
  have := reflLane_laneAt w c k hk
  have hc := c.isLt
  show (reflLane (laneAt (lane w c) k hk)).val % 3 = _
  omega

/-- The blur in lanes is the blur in pixels. -/
theorem lanes_eq (x : Fin 64 → Fin 384 → Fin 512 → Fin 3 → EReal) (b : Fin 64) (h : Fin 384) (w : Fin 512) (c : Fin 3) :
    blur2 (imageOf x b) h (lane w c) = blurAt x b h w c := by
  unfold blur2 cols2 blurAt colsAt
  simp only [rows2_imageOf, colOf_reflLane, chanOf_reflLane]

end Cert.Blur

end
-- ==== Proof.LibConcatAt.lean ====
/-
  Concatenations and reversals read at an index given by its coordinates.

  For any element type and any extents:
    * a concatenation of a LIST of pieces along the rows (axis 0) or along the columns (axis 1) of
      a matrix, read at (p, l): piece k, whose span along the axis starts at `pre` (the extents
      of the pieces before it added up), at the index with the axis coordinate `pre` less;
    * a concatenation of TWO pieces along axis 1 or axis 2 of a rank-4 array, read at (a, p, c, e)
      or (a, b, p, e): the first piece at the same coordinates when p is below its extent, the
      second at the axis coordinate less the first extent otherwise;
    * a reversal along axis 1 or axis 2 of a rank-4 array: the operand at the mirrored coordinate
      on that axis (extent - 1 - coordinate), the other coordinates kept.
  Each is the library's general statement (Lib/Pipeline/Value.lean `concatenate_apply_piece`,
  `concatenate_pair_apply_left` / `_right`; PureOps/ShapeOps.lean `Host.reverse`) with the
  per-axis side conditions discharged once.
-/
import Idealize.ShloMosaic.Lib.Pipeline.Value
import Idealize.ShloMosaic.Lib.ValueIdx

namespace Cert.ConcatAt

open Idealize.ShloMosaic Idealize.ShloMosaic.ValueIdx

variable {α : Type}

/-- Pieces stacked along the ROWS of a matrix: row `p` falls in piece `k`, at its row `r = p - pre`. -/
theorem rows_piece {t0 t1 : ℕ} (xs : List ((s : Shape) × (s.Idx → α)))
    (h : Shape.Concatenates (xs.map (·.1)) (⟨2, ![t0, t1]⟩ : Shape) (0 : Fin 2))
    (p : Fin t0) (l : Fin t1) (k : ℕ) (hk : k < xs.length) {m : ℕ} (x₁ : (⟨2, ![m, t1]⟩ : Shape).Idx → α)
    (hxk : xs[k] = ⟨(⟨2, ![m, t1]⟩ : Shape), x₁⟩) (pre : ℕ)
    (hpre : (((xs.take k).map (·.1)).map fun s =>
      if h : s.rank = (⟨2, ![t0, t1]⟩ : Shape).rank then s.size ((0 : Fin 2).cast h.symm) else 0).sum = pre)
    (r : Fin m) (hr : pre + r.val = p.val) :
    concatenate (⟨2, ![t0, t1]⟩ : Shape) (0 : Fin 2) xs h (ix2 p l) = x₁ (ix2 r l) :=
  concatenate_apply_piece (t := (⟨2, ![t0, t1]⟩ : Shape)) (0 : Fin 2) xs h (ix2 p l) k hk _ x₁ hxk rfl pre hpre (ix2 r l)
    (fun b hb => by
      match b with
      | ⟨0, _⟩ => exact absurd rfl hb
      | ⟨1, _⟩ => rfl)
    (by exact hr)

/-- Pieces laid side by side along the COLUMNS of a matrix: column `q` falls in piece `k`, at its column `r = q - pre`. -/
theorem cols_piece {t0 t1 : ℕ} (xs : List ((s : Shape) × (s.Idx → α)))
    (h : Shape.Concatenates (xs.map (·.1)) (⟨2, ![t0, t1]⟩ : Shape) (1 : Fin 2))
    (p : Fin t0) (q : Fin t1) (k : ℕ) (hk : k < xs.length) {m : ℕ} (x₁ : (⟨2, ![t0, m]⟩ : Shape).Idx → α)
    (hxk : xs[k] = ⟨(⟨2, ![t0, m]⟩ : Shape), x₁⟩) (pre : ℕ)
    (hpre : (((xs.take k).map (·.1)).map fun s =>
      if h : s.rank = (⟨2, ![t0, t1]⟩ : Shape).rank then s.size ((1 : Fin 2).cast h.symm) else 0).sum = pre)
    (r : Fin m) (hr : pre + r.val = q.val) :
    concatenate (⟨2, ![t0, t1]⟩ : Shape) (1 : Fin 2) xs h (ix2 p q) = x₁ (ix2 p r) :=
  concatenate_apply_piece (t := (⟨2, ![t0, t1]⟩ : Shape)) (1 : Fin 2) xs h (ix2 p q) k hk _ x₁ hxk rfl pre hpre (ix2 p r)
    (fun b hb => by
      match b with
      | ⟨0, _⟩ => rfl
      | ⟨1, _⟩ => exact absurd rfl hb)
    (by exact hr)

/-- Two pieces along axis 1 of a rank-4 array, the coordinate in the FIRST. -/
theorem axis1_left {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m1) (hr : r.val = p.val) :
    concatenate (⟨4, ![n0, t1, n2, n3]⟩ : Shape) (1 : Fin 4) [⟨_, x₁⟩, ⟨_, x₂⟩] h (ix4 a p c e) = x₁ (ix4 a r c e) :=
  concatenate_pair_apply_left (t := (⟨4, ![n0, t1, n2, n3]⟩ : Shape)) (1 : Fin 4) x₁ x₂ h (ix4 a p c e) rfl (ix4 a r c e) (fun b => by
    match b with
    | ⟨0, _⟩ => rfl
    | ⟨1, _⟩ => exact hr
    | ⟨2, _⟩ => rfl
    | ⟨3, _⟩ => rfl)

/-- Two pieces along axis 1 of a rank-4 array, the coordinate in the SECOND. -/
theorem axis1_right {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m2) (hr : r.val + m1 = p.val) :
    concatenate (⟨4, ![n0, t1, n2, n3]⟩ : Shape) (1 : Fin 4) [⟨_, x₁⟩, ⟨_, x₂⟩] h (ix4 a p c e) = x₂ (ix4 a r c e) :=
  concatenate_pair_apply_right (t := (⟨4, ![n0, t1, n2, n3]⟩ : Shape)) (1 : Fin 4) x₁ x₂ h (ix4 a p c e) rfl rfl (ix4 a r c e) (fun b hb => by
    match b with
    | ⟨0, _⟩ => rfl
    | ⟨1, _⟩ => exact absurd rfl hb
    | ⟨2, _⟩ => rfl
    | ⟨3, _⟩ => rfl) (by exact hr)

/-- Two pieces along axis 2 of a rank-4 array, the coordinate in the FIRST. -/
theorem axis2_left {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m1) (hr : r.val = p.val) :
    concatenate (⟨4, ![n0, n1, t2, n3]⟩ : Shape) (2 : Fin 4) [⟨_, x₁⟩, ⟨_, x₂⟩] h (ix4 a b p e) = x₁ (ix4 a b r e) :=
  concatenate_pair_apply_left (t := (⟨4, ![n0, n1, t2, n3]⟩ : Shape)) (2 : Fin 4) x₁ x₂ h (ix4 a b p e) rfl (ix4 a b r e) (fun d => by
    match d with
    | ⟨0, _⟩ => rfl
    | ⟨1, _⟩ => rfl
    | ⟨2, _⟩ => exact hr
    | ⟨3, _⟩ => rfl)

/-- Two pieces along axis 2 of a rank-4 array, the coordinate in the SECOND. -/
theorem axis2_right {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m2) (hr : r.val + m1 = p.val) :
    concatenate (⟨4, ![n0, n1, t2, n3]⟩ : Shape) (2 : Fin 4) [⟨_, x₁⟩, ⟨_, x₂⟩] h (ix4 a b p e) = x₂ (ix4 a b r e) :=
  concatenate_pair_apply_right (t := (⟨4, ![n0, n1, t2, n3]⟩ : Shape)) (2 : Fin 4) x₁ x₂ h (ix4 a b p e) rfl rfl (ix4 a b r e) (fun d hd => by
    match d with
    | ⟨0, _⟩ => rfl
    | ⟨1, _⟩ => rfl
    | ⟨2, _⟩ => exact absurd rfl hd
    | ⟨3, _⟩ => rfl) (by exact hr)

/-- The one-element axis list does not hold another axis. -/
private theorem not_mem_single {N : ℕ} {a b : Fin N} (h : a.val ≠ b.val) : a ∉ [b] :=
  fun hm => Fin.ne_of_val_ne h (List.mem_singleton.mp hm)

/-- A rank-4 array reversed along axis 1 reads the mirrored coordinate there. -/
theorem reverse_axis1 {n0 n1 n2 n3 : ℕ} (v : (⟨4, ![n0, n1, n2, n3]⟩ : Shape).Idx → α)
    (a : Fin n0) (j : Fin n1) (c : Fin n2) (e : Fin n3) :
    Host.reverse (s := (⟨4, ![n0, n1, n2, n3]⟩ : Shape)) [(1 : Fin 4)] v (ix4 a j c e) = v (ix4 a j.rev c e) := by
  unfold Host.reverse
  refine congrArg v (funext fun d => ?_)
  match d with
  | ⟨0, _⟩ => exact if_neg (not_mem_single (N := 4) (b := 1) (show (0 : ℕ) ≠ 1 by omega))
  | ⟨1, _⟩ => exact if_pos (List.mem_singleton.mpr (Fin.ext rfl))
  | ⟨2, _⟩ => exact if_neg (not_mem_single (N := 4) (b := 1) (show (2 : ℕ) ≠ 1 by omega))
  | ⟨3, _⟩ => exact if_neg (not_mem_single (N := 4) (b := 1) (show (3 : ℕ) ≠ 1 by omega))

/-- A rank-4 array reversed along axis 2 reads the mirrored coordinate there. -/
theorem reverse_axis2 {n0 n1 n2 n3 : ℕ} (v : (⟨4, ![n0, n1, n2, n3]⟩ : Shape).Idx → α)
    (a : Fin n0) (b : Fin n1) (j : Fin n2) (e : Fin n3) :
    Host.reverse (s := (⟨4, ![n0, n1, n2, n3]⟩ : Shape)) [(2 : Fin 4)] v (ix4 a b j e) = v (ix4 a b j.rev e) := by
  unfold Host.reverse
  refine congrArg v (funext fun d => ?_)
  match d with
  | ⟨0, _⟩ => exact if_neg (not_mem_single (N := 4) (b := 2) (show (0 : ℕ) ≠ 2 by omega))
  | ⟨1, _⟩ => exact if_neg (not_mem_single (N := 4) (b := 2) (show (1 : ℕ) ≠ 2 by omega))
  | ⟨2, _⟩ => exact if_pos (List.mem_singleton.mpr (Fin.ext rfl))
  | ⟨3, _⟩ => exact if_neg (not_mem_single (N := 4) (b := 2) (show (3 : ℕ) ≠ 2 by omega))

end Cert.ConcatAt
-- ==== Proof.KernelStagesValue.lean ====
/-
  The kernel body's stages read at an index, at the ideal instance.

  For an image held as [384, 1536] (lanes = column·3 + channel):
    * the padded rows at (p, l) are the image at (reflRow p, l): the concatenation's five pieces
      are row 2, row 1, the image itself, row 382 and row 381, which is the reflection case by case;
    * the weighted sum over rows at (h, l) is `taps5` of the padded image at rows h … h+4;
    * the padded lanes at (h, q) are the image at (h, reflLane q): the five pieces are the lane
      triples of columns 2 and 1, the image, and the triples of columns 510 and 509;
    * the weighted sum over columns at (h, l) is `taps5` of the padded image at lanes l, l+3, …, l+12.
  Together: the stored block at (·, h, l) is the lane-layout blur of the loaded block (`body_apply`).
-/
import proofs.«140527_j59450937312003_1_alg».proof.Proof.KernelStages
import proofs.«140527_j59450937312003_1_alg».proof.Proof.BlurSpec
import proofs.«140527_j59450937312003_1_alg».proof.Proof.LibConcatAt
import Idealize.ShloMosaic.Lib.ValueLayout

noncomputable section

namespace Cert.KernelIdeal.StagesValue

open Cert.KernelIdeal Cert.KernelIdeal.Stages Cert.KernelIdeal.Facts₀ Idealize.ShloMosaic Idealize.ShloMosaic.ValueIdx Cert.Blur

/-- The padded rows read the reflected row. -/
theorem padRows_apply (v : FVec Ideal S384x1536 .f32) (p : Fin 388) (l : Fin 1536) :
    padRows v (ix2 p l) = v (ix2 (reflRow p) l) := by
  have hp := p.isLt
  unfold padRows
  by_cases h0 : p.val < 1
  · -- padded row 0 is row 2
    refine (Cert.ConcatAt.rows_piece _ _ p l 0 (by simp) (m := 1) _ rfl 0 rfl (0 : Fin 1) (by show 0 + 0 = p.val; omega)).trans ?_
    refine (slice2_axis0_apply 2 v _ (0 : Fin 1) l (⟨2, by omega⟩ : Fin 384) rfl).trans ?_
    exact congrArg (fun r => v (ix2 r l)) (Fin.ext (by rw [reflRow_front p (by omega)]; show 2 = 2 - p.val; omega))
  by_cases h1 : p.val < 2
  · -- padded row 1 is row 1
    refine (Cert.ConcatAt.rows_piece _ _ p l 1 (by simp) (m := 1) _ rfl 1 rfl (0 : Fin 1) (by show 1 + 0 = p.val; omega)).trans ?_
    refine (slice2_axis0_apply 1 v _ (0 : Fin 1) l (⟨1, by omega⟩ : Fin 384) rfl).trans ?_
    exact congrArg (fun r => v (ix2 r l)) (Fin.ext (by rw [reflRow_front p (by omega)]; show 1 = 2 - p.val; omega))
  by_cases h2 : p.val < 386
  · -- padded rows 2 … 385 are rows 0 … 383
    refine (Cert.ConcatAt.rows_piece _ _ p l 2 (by simp) (m := 384) _ rfl 2 rfl (⟨p.val - 2, by omega⟩ : Fin 384) (by show 2 + (p.val - 2) = p.val; omega)).trans ?_
    exact congrArg (fun r => v (ix2 r l)) (Fin.ext (by rw [reflRow_mid p (by omega) h2]))
  by_cases h3 : p.val < 387
  · -- padded row 386 is row 382
    refine (Cert.ConcatAt.rows_piece _ _ p l 3 (by simp) (m := 1) _ rfl 386 rfl (0 : Fin 1) (by show 386 + 0 = p.val; omega)).trans ?_
    refine (slice2_axis0_apply 382 v _ (0 : Fin 1) l (⟨382, by omega⟩ : Fin 384) rfl).trans ?_
    exact congrArg (fun r => v (ix2 r l)) (Fin.ext (by rw [reflRow_back p (by omega)]; show 382 = 768 - p.val; omega))
  · -- padded row 387 is row 381
    refine (Cert.ConcatAt.rows_piece _ _ p l 4 (by simp) (m := 1) _ rfl 387 rfl (0 : Fin 1) (by show 387 + 0 = p.val; omega)).trans ?_
    refine (slice2_axis0_apply 381 v _ (0 : Fin 1) l (⟨381, by omega⟩ : Fin 384) rfl).trans ?_
    exact congrArg (fun r => v (ix2 r l)) (Fin.ext (by rw [reflRow_back p (by omega)]; show 381 = 768 - p.val; omega))

/-- The weighted sum over rows reads the padded image at rows h … h+4. -/
theorem tapsRows_apply (P : FVec Ideal S388x1536 .f32) (h : Fin 384) (l : Fin 1536) :
    tapsRows P (ix2 h l)
      = taps5 (P (ix2 (rowAt h 0 (by omega)) l)) (P (ix2 (rowAt h 1 (by omega)) l)) (P (ix2 (rowAt h 2 (by omega)) l))
          (P (ix2 (rowAt h 3 (by omega)) l)) (P (ix2 (rowAt h 4 (by omega)) l)) := by
  have e0 := slice2_axis0_apply 0 P slices_S388x1536_o0_0_S384x1536 h l (rowAt h 0 (by omega)) (by show h.val + 0 = 0 + h.val; omega)
  have e1 := slice2_axis0_apply 1 P slices_S388x1536_o1_0_S384x1536 h l (rowAt h 1 (by omega)) (by show h.val + 1 = 1 + h.val; omega)
  have e2 := slice2_axis0_apply 2 P slices_S388x1536_o2_0_S384x1536 h l (rowAt h 2 (by omega)) (by show h.val + 2 = 2 + h.val; omega)
  have e3 := slice2_axis0_apply 3 P slices_S388x1536_o3_0_S384x1536 h l (rowAt h 3 (by omega)) (by show h.val + 3 = 3 + h.val; omega)
  have e4 := slice2_axis0_apply 4 P slices_S388x1536_o4_0_S384x1536 h l (rowAt h 4 (by omega)) (by show h.val + 4 = 4 + h.val; omega)
  unfold tapsRows
  simp only [addf_apply, mulf_apply, e0, e1, e2, e3, e4]
  rfl

/-- The padded lanes read the reflected lane. -/
theorem padCols_apply (y : FVec Ideal S384x1536 .f32) (h : Fin 384) (q : Fin 1548) :
    padCols y (ix2 h q) = y (ix2 h (reflLane q)) := by
  have hq := q.isLt
  unfold padCols
  by_cases h0 : q.val < 3
  · -- column 0 reads column 2
    refine (Cert.ConcatAt.cols_piece _ _ h q 0 (by simp) (m := 3) _ rfl 0 rfl (⟨q.val, h0⟩ : Fin 3) (by show 0 + q.val = q.val; omega)).trans ?_
    refine (slice2_axis1_apply 6 y _ h (⟨q.val, h0⟩ : Fin 3) (⟨6 + q.val, by omega⟩ : Fin 1536) rfl).trans ?_
    exact congrArg (fun r => y (ix2 h r)) (Fin.ext (by rw [reflLane_c0 q h0]))
  by_cases h1 : q.val < 6
  · -- column 1 reads column 1
    refine (Cert.ConcatAt.cols_piece _ _ h q 1 (by simp) (m := 3) _ rfl 3 rfl (⟨q.val - 3, by omega⟩ : Fin 3) (by show 3 + (q.val - 3) = q.val; omega)).trans ?_
    refine (slice2_axis1_apply 3 y _ h (⟨q.val - 3, by omega⟩ : Fin 3) (⟨3 + (q.val - 3), by omega⟩ : Fin 1536) rfl).trans ?_
    exact congrArg (fun r => y (ix2 h r)) (Fin.ext (by rw [reflLane_c1 q (by omega) h1]; show 3 + (q.val - 3) = q.val; omega))
  by_cases h2 : q.val < 1542
  · -- columns 2 … 513 read columns 0 … 511
    refine (Cert.ConcatAt.cols_piece _ _ h q 2 (by simp) (m := 1536) _ rfl 6 rfl (⟨q.val - 6, by omega⟩ : Fin 1536) (by show 6 + (q.val - 6) = q.val; omega)).trans ?_
    exact congrArg (fun r => y (ix2 h r)) (Fin.ext (by rw [reflLane_mid q (by omega) h2]))
  by_cases h3 : q.val < 1545
  · -- column 514 reads column 510
    refine (Cert.ConcatAt.cols_piece _ _ h q 3 (by simp) (m := 3) _ rfl 1542 rfl (⟨q.val - 1542, by omega⟩ : Fin 3) (by show 1542 + (q.val - 1542) = q.val; omega)).trans ?_
    refine (slice2_axis1_apply 1530 y _ h (⟨q.val - 1542, by omega⟩ : Fin 3) (⟨1530 + (q.val - 1542), by omega⟩ : Fin 1536) rfl).trans ?_
    exact congrArg (fun r => y (ix2 h r)) (Fin.ext (by rw [reflLane_c514 q (by omega) h3]; show 1530 + (q.val - 1542) = q.val - 12; omega))
  · -- column 515 reads column 509
    refine (Cert.ConcatAt.cols_piece _ _ h q 4 (by simp) (m := 3) _ rfl 1545 rfl (⟨q.val - 1545, by omega⟩ : Fin 3) (by show 1545 + (q.val - 1545) = q.val; omega)).trans ?_
    refine (slice2_axis1_apply 1527 y _ h (⟨q.val - 1545, by omega⟩ : Fin 3) (⟨1527 + (q.val - 1545), by omega⟩ : Fin 1536) rfl).trans ?_
    exact congrArg (fun r => y (ix2 h r)) (Fin.ext (by rw [reflLane_c515 q (by omega)]; show 1527 + (q.val - 1545) = q.val - 18; omega))

/-- The weighted sum over columns reads the padded image at lanes l, l+3, …, l+12. -/
theorem tapsCols_apply (P : FVec Ideal S384x1548 .f32) (h : Fin 384) (l : Fin 1536) :
    tapsCols P (ix2 h l)
      = taps5 (P (ix2 h (laneAt l 0 (by omega)))) (P (ix2 h (laneAt l 1 (by omega)))) (P (ix2 h (laneAt l 2 (by omega))))
          (P (ix2 h (laneAt l 3 (by omega)))) (P (ix2 h (laneAt l 4 (by omega)))) := by
  have e0 := slice2_axis1_apply 0 P slices_S384x1548_o0_0_S384x1536 h l (laneAt l 0 (by omega)) (by show l.val + 3 * 0 = 0 + l.val; omega)
  have e1 := slice2_axis1_apply 3 P slices_S384x1548_o0_3_S384x1536 h l (laneAt l 1 (by omega)) (by show l.val + 3 * 1 = 3 + l.val; omega)
  have e2 := slice2_axis1_apply 6 P slices_S384x1548_o0_6_S384x1536 h l (laneAt l 2 (by omega)) (by show l.val + 3 * 2 = 6 + l.val; omega)
  have e3 := slice2_axis1_apply 9 P slices_S384x1548_o0_9_S384x1536 h l (laneAt l 3 (by omega)) (by show l.val + 3 * 3 = 9 + l.val; omega)
  have e4 := slice2_axis1_apply 12 P slices_S384x1548_o0_12_S384x1536 h l (laneAt l 4 (by omega)) (by show l.val + 3 * 4 = 12 + l.val; omega)
  unfold tapsCols
  simp only [addf_apply, mulf_apply, e0, e1, e2, e3, e4]
  rfl

/-- The stored block is the lane-layout blur of the loaded block. -/
theorem body_apply (v0 : Vec Ideal S1x384x1536 .f32) (u : Fin 1) (h : Fin 384) (l : Fin 1536) :
    body v0 (ix3 u h l) = blur2 (fun h l => v0 (ix3 (0 : Fin 1) h l)) h l := by
  unfold body
  rw [shapeCast_ab_1ab_apply, tapsCols_apply]
  simp only [padCols_apply, tapsRows_apply, padRows_apply, shapeCast_1ab_ab_apply]
  rfl

end Cert.KernelIdeal.StagesValue

end
-- ==== Proof.KernelRun.lean ====
/-
  The idealized kernel program's run, read as a value: its result array is the blur of its argument.

  @main reshapes the batch [64, 384, 512, 3] to [64, 384, 1536] (each row's pixels and channels side by
  side in lanes), launches the body once per image over a grid of 64 points, and reshapes the
  result back.
    * The reshaped argument at (b, h, l) is the argument at (b, h, l / 3, l % 3): the two index sets
      are matched in row-major order, and lane l = 3·column + channel.
    * Point t of the grid stages image t whole: its input block is rows and lanes of image t, and
      what it writes back is block t of the array whose entry (b, h, l) is the lane-layout blur of
      image b at (h, l).  The 64 blocks cover the output array, so the array after the region is
      that function.
    * The final reshape reads entry (b, h, w, c) at (b, h, 3w + c).
  Since the blur in lanes is the blur in pixels (`Cert.Blur.lanes_eq`), the program's result is
  `Cert.Blur.blur` of its argument.
-/
import proofs.«140527_j59450937312003_1_alg».proof.Proof.Gen.KernelIdeal.Frame
import proofs.«140527_j59450937312003_1_alg».proof.Proof.KernelStagesValue
import Idealize.ShloMosaic.Lib.Pipeline.Value
import Idealize.ShloMosaic.Lib.StableHlo.Run

noncomputable section

namespace Cert.KernelIdeal.BlurRun

open Cert.KernelIdeal Cert.KernelIdeal.Gen Idealize.ShloMosaic Idealize.ShloMosaic.TcCoe Idealize.SL.Sem
open Idealize.ShloMosaic.Pipeline (Dat)
open Idealize.ShloMosaic.ValueIdx Cert.Blur Idealize.ShloMosaic.StableHlo

variable (m : (ℓ : Loc nD τ sig) → Buf (Elt Ideal) ℓ) (ρ : Dev nD → PrngReg)

/-! ## The array the region writes -/

/-- Entry (b, h, l) of the region's output as a function of the region's input array: the lane-layout blur of image b. -/
def lanesBlur (A : S64x384x1536.Idx → EReal) : S64x384x1536.Idx → EReal :=
  fun i => blur2 (fun h l => A (ix3 (i 0) h l)) (i 1) (i 2)

theorem lanesBlur_ix3 (A : S64x384x1536.Idx → EReal) (b : Fin 64) (h : Fin 384) (l : Fin 1536) :
    lanesBlur A (ix3 b h l) = blur2 (fun h l => A (ix3 b h l)) h l := rfl

theorem hz : (![0, 0, 0] : Fin 3 → Nat) = fun _ => 0 := funext fun a => by fin_cases a <;> rfl

/-- The printed index maps over the grid: both windows are at block (t, 0, 0) at point t. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem lt64 (t : Fin cfg0.N) : t.val < 64 := lt_of_lt_of_eq t.isLt N_0

/-- The input block of point t at (·, h, l) is the input array at (t, h, l). -/
theorem iblk_apply (c : Dev nD) (t : Fin cfg0.N) (u : Fin 1) (h : Fin 384) (l : Fin 1536) :
    iblk m c 0 t (ix3 u h l) = V m c main_v0 (ix3 (⟨t.val, lt64 t⟩ : Fin 64) h l) := by
  obtain ⟨e0, e1, e2, -, -, -⟩ := idx_facts t
  show V m c main_v0 (((cfg0.win 0).blk t).view.emb (ix3 u h l)) = V m c main_v0 (ix3 (⟨t.val, lt64 t⟩ : Fin 64) h l)
  refine congrArg (V m c main_v0) (funext fun a => Fin.ext ?_)
  have hu : u.val = 0 := by omega
  match a with
  | ⟨0, _⟩ => show win0_0.index t (0 : Fin 3) * 1 + 1 * u.val = t.val; omega
  | ⟨1, _⟩ => show win0_0.index t (1 : Fin 3) * 384 + 1 * h.val = h.val; omega
  | ⟨2, _⟩ => show win0_0.index t (2 : Fin 3) * 1536 + 1 * l.val = l.val; omega

/-- The output block of point t sits at (t, ·, ·) of the output array. -/
theorem oblk_emb (t : Fin cfg0.N) (u : Fin 1) (h : Fin 384) (l : Fin 1536) :
    ((cfg0.win 1).blk t).view.emb (ix3 u h l) = ix3 (⟨t.val, lt64 t⟩ : Fin 64) h l := by
  obtain ⟨-, -, -, e0, e1, e2⟩ := idx_facts t
  refine funext fun a => Fin.ext ?_
  have hu : u.val = 0 := by omega
  match a with
  | ⟨0, _⟩ => show win0_1.index t (0 : Fin 3) * 1 + 1 * u.val = t.val; omega
  | ⟨1, _⟩ => show win0_1.index t (1 : Fin 3) * 384 + 1 * h.val = h.val; omega
  | ⟨2, _⟩ => show win0_1.index t (2 : Fin 3) * 1536 + 1 * l.val = l.val; omega

/-- What point t writes back is block t of the lane-layout blur of the region's input array. -/
theorem flushed_eq (c : Dev nD) (t : Fin cfg0.N) :
    (dats m 0 c).flushed 1 t = ((cfg0.win 1).blk t).view.read (Elt Ideal) (lanesBlur (V m c main_v0)) := by
  show (cfg0.win 1).cut (grid0.coords t) ((dats m 0 c).after 1 t) = _
  rw [after0_1]
  unfold out0_1
  rw [View.canon_unit_zero hz]
  simp only [View.ld_unit_zero (S := S1x384x1536) hz]
  rw [Cert.KernelIdeal.Stages.pay_eq]
  suffices H : ∀ j : S1x384x1536.Idx, Cert.KernelIdeal.Stages.body (iblk m c 0 t) j
      = lanesBlur (V m c main_v0) (((cfg0.win 1).blk t).view.emb j) from funext H
  intro j
  obtain ⟨u, h, l, rfl⟩ : ∃ (u : Fin 1) (h : Fin 384) (l : Fin 1536), j = ix3 u h l := ⟨j 0, j 1, j 2, eq_ix3 j⟩
  refine (Cert.KernelIdeal.StagesValue.body_apply (iblk m c 0 t) u h l).trans ?_
  rw [oblk_emb t u h l, lanesBlur_ix3]
  exact congrArg (fun img => blur2 img h l) (funext fun h' => funext fun l' => iblk_apply m c t 0 h' l')

/-- An index of the output array is in point t's block iff each coordinate is in the block's range. -/
theorem mem_blk (t : Fin cfg0.N) (i : S64x384x1536.Idx) :
    i ∈ ((cfg0.win 1).blk t).view.set ↔ ∀ a : Fin 3, win0_1.index t a * S1x384x1536.size a ≤ (i a).val
      ∧ (i a).val < win0_1.index t a * S1x384x1536.size a + S1x384x1536.size a := by
  show i ∈ ((View.whole main_v1).slice (win0_1.rect t)).set ↔ _
  rw [View.set_slice_whole, Rect.mem_set_unit]
  exact Iff.rfl

/-- Every entry of the output array is in the block of its image's point. -/
theorem cover (i : S64x384x1536.Idx) : ∃ t : Fin cfg0.N, (cfg0.win 1).flush t = true ∧ i ∈ ((cfg0.win 1).blk t).view.set := by
  have h0 : (i 0).val < 64 := (i 0).isLt
  have h1 : (i 1).val < 384 := (i 1).isLt
  have h2 : (i 2).val < 1536 := (i 2).isLt
  let t : Fin cfg0.N := ⟨(i 0).val, lt_of_lt_of_eq h0 N_0.symm⟩
  obtain ⟨-, -, -, e0, e1, e2⟩ := idx_facts t
  have e0' : win0_1.index t (0 : Fin 3) = (i 0).val := e0
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 384 ≤ (i 1).val ∧ (i 1).val < win0_1.index t (1 : Fin 3) * 384 + 384; omega
  | ⟨2, _⟩ => show win0_1.index t (2 : Fin 3) * 1536 ≤ (i 2).val ∧ (i 2).val < win0_1.index t (2 : Fin 3) * 1536 + 1536; omega

/-- The output array after the region. -/
theorem final (c : Dev nD) : (dats m 0 c).arrAt 1 cfg0.N = lanesBlur (V m c main_v0) :=
  (dats m 0 c).arrAt_eq_of_cover 1 (lanesBlur (V m c main_v0)) (fun t _ => flushed_eq m c t) cover

/-! ## The reshapes around the region -/

/-- The region's input array is the argument reshaped. -/
theorem V_main_v0 (c : Dev nD) :
    (V m c main_v0 : S64x384x1536.Idx → EReal)
      = shapeCast S64x384x1536 (m ((c : Thread nD τ).loc main_arg0)) shapeCasts_S64x384x512x3_S64x384x1536 := by
  show StableHlo.after hostOps0 (fun b => m (c, b)) (Proc.devRef .tc main_v0) = _
  after_results
  rfl

/-- Lanes from pixels: entry (b, h, l) of the reshaped batch is entry (b, h, l / 3, l % 3). -/
theorem reshapeIn_apply (X : S64x384x512x3.Idx → EReal) (b : Fin 64) (h : Fin 384) (l : Fin 1536) :
    shapeCast S64x384x1536 X shapeCasts_S64x384x512x3_S64x384x1536 (ix3 b h l) = X (ix4 b h (colOf l) (chanOf l)) :=
  shapeCast_apply X _ (ix3 b h l) (ix4 b h (colOf l) (chanOf l)) (by
    rw [Shape.rowMajor_val_four, Shape.rowMajor_val_three]
    show ((b.val * 384 + h.val) * 512 + l.val / 3) * 3 + l.val % 3 = (b.val * 384 + h.val) * 1536 + l.val
    omega)

/-- Pixels from lanes: entry (b, h, w, c) of the reshaped result is entry (b, h, 3w + c). -/
theorem reshapeOut_apply (Y : S64x384x1536.Idx → EReal) (b : Fin 64) (h : Fin 384) (w : Fin 512) (c : Fin 3) :
    shapeCast S64x384x512x3 Y shapeCasts_S64x384x1536_S64x384x512x3 (ix4 b h w c) = Y (ix3 b h (lane w c)) :=
  shapeCast_apply Y _ (ix4 b h w c) (ix3 b h (lane w c)) (by
    rw [Shape.rowMajor_val_three, Shape.rowMajor_val_four]
    show (b.val * 384 + h.val) * 1536 + (3 * w.val + c.val) = ((b.val * 384 + h.val) * 512 + w.val) * 3 + c.val
    omega)

/-! ## The program's result -/

/-- What the reshape after the region leaves in the result buffer: the blur of the argument. -/
theorem tail_eq (c : Dev nD) :
    Pipeline.afterTail₀ cfgs (dats m) 0 (V0 m) [hostOps1] c main_v2 = Cert.Blur.blur (m ((c : Thread nD τ).loc main_arg0)) := by
  have hw : Pipeline.withArrays (cfgs 0).spec c (V0 m c) (fun w => (dats m 0 c).arrAt w (cfgs 0).N) (Proc.devRef .tc main_v1)
      = lanesBlur (V m c main_v0) :=
    (Pipeline.withArrays_arr spec0 launch0.win.arr_inj c _ _ 1).trans (final m c)
  unfold Pipeline.afterTail₀
  show StableHlo.after hostOps1 _ (Proc.devRef .tc main_v2) = _
  after_results
  funext i
  obtain ⟨b, h, w, ch, rfl⟩ : ∃ (b : Fin 64) (h : Fin 384) (w : Fin 512) (ch : Fin 3), i = ix4 b h w ch :=
    ⟨i 0, i 1, i 2, i 3, eq_ix4 i⟩
  refine (congrArg (fun Y : S64x384x1536.Idx → EReal =>
    shapeCast S64x384x512x3 Y shapeCasts_S64x384x1536_S64x384x512x3 (ix4 b h w ch)) hw).trans ?_
  rw [reshapeOut_apply, lanesBlur_ix3, blur_ix4, ← lanes_eq]
  refine congrArg (fun img => blur2 img h (lane w ch)) (funext fun h' => funext fun l' => ?_)
  rw [V_main_v0, reshapeIn_apply]
  rfl

/-- Every weakly fair execution of the idealized kernel program ends with the result buffer at the blur of the
    argument and the argument unchanged. -/
theorem run : θ_run defs (onTc (τ := τ) (main (F := Ideal))) ⟨m, fun _ => 0, ρ⟩ fun r => ∀ c : Dev nD,
    r.2.mem ((c.tc : Thread nD τ).loc main_v2) = Cert.Blur.blur (m ((c.tc : Thread nD τ).loc main_arg0))
    ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c)⟩)
    (run_main m ρ)

end Cert.KernelIdeal.BlurRun

end
-- ==== Proof.RefStages.lean ====
/-
  The reference program's arithmetic, stage by stage, as pure functions of one array.

  The reference blurs a batch of images [64, 384, 512, 3] with a separable five-tap kernel under the
  reflect-101 border rule: first along the rows (axis 1), then along the columns (axis 2).  Each pass
  is two steps:
    * PAD: two reflected entries are put in front of the axis and two behind it.  Along an axis of
      extent n the padded axis reads, in order, entries 2, 1, 0, 1, …, n-1, n-2, n-3 of the source.
      The program builds it with two slices, two reversals and two concatenations;
    * TAPS: the five windows of the padded array at offsets 0 … 4 along the axis are multiplied by
      the five taps t0 … t4 (entries of one constant table) and added up from the left, starting
      from an array of zeros:  ((((0 + t0·P0) + t1·P1) + t2·P2) + t3·P3) + t4·P4.

  The functions below are the printed operations composed in the printed order, for any float
  instance; nothing is proved here.
-/
import proofs.«140527_j59450937312003_1_alg».proof.Proof.Gen.ReferenceIdeal

noncomputable section

namespace Cert.ReferenceIdeal.Stages

open Cert.ReferenceIdeal Cert.ReferenceIdeal.Facts₀ Idealize.ShloMosaic

variable {F : FTy → Type} [FloatOps F]

/-- The table of the five taps, as the program's constant holds it. -/
def table : FVec F S5 .f32 := fun i => FloatOps.ofBits .f32 (lit0 (S5.rowMajor i))

/-- Tap `k` of the table spread over a whole image batch: entry `k` is cut out, read as a scalar and broadcast. -/
def tapAt (k : Nat) (h : S5.Slices ![k] S1) : FVec F S64x384x512x3 .f32 :=
  broadcastInDim S64x384x512x3 ![] bcast_S_S64x384x512x3
    (shapeCast S_ (extractStridedSlice S1 ![k] (table (F := F)) h) shapeCasts_S1_S_)

/-- The array of zeros both sums start from. -/
def zeros : FVec F S64x384x512x3 .f32 :=
  broadcastInDim S64x384x512x3 ![] bcast_S_S64x384x512x3 (constant S_ .f32 0x00000000#32)

/-- The rows padded by reflection: rows 2, 1 in front, rows 382, 381 behind. -/
def padRows (x : FVec F S64x384x512x3 .f32) : FVec F S64x388x512x3 .f32 :=
  let front : FVec F S64x386x512x3 .f32 :=
    concatenate S64x386x512x3 1
      [⟨S64x2x512x3, Host.reverse [1] (extractStridedSlice S64x2x512x3 ![0, 1, 0, 0] x slices_S64x384x512x3_S64x2x512x3_0_1_0_0)⟩,
       ⟨S64x384x512x3, x⟩]
      concatenates_S64x2x512x3_S64x384x512x3_S64x386x512x3_d1
  concatenate S64x388x512x3 1
    [⟨S64x386x512x3, front⟩,
     ⟨S64x2x512x3, Host.reverse [1] (extractStridedSlice S64x2x512x3 ![0, 383, 0, 0] front slices_S64x386x512x3_S64x2x512x3_0_383_0_0)⟩]
    concatenates_S64x386x512x3_S64x2x512x3_S64x388x512x3_d1

/-- The five row windows of the padded array weighted and added up from the left, starting from zero. -/
def tapsRows (p : FVec F S64x388x512x3 .f32) : FVec F S64x384x512x3 .f32 :=
  addf (addf (addf (addf (addf zeros
    (mulf (tapAt 0 slices_S5_S1_0) (extractStridedSlice S64x384x512x3 ![0, 0, 0, 0] p slices_S64x388x512x3_S64x384x512x3_0_0_0_0)))
    (mulf (tapAt 1 slices_S5_S1_1) (extractStridedSlice S64x384x512x3 ![0, 1, 0, 0] p slices_S64x388x512x3_S64x384x512x3_0_1_0_0)))
    (mulf (tapAt 2 slices_S5_S1_2) (extractStridedSlice S64x384x512x3 ![0, 2, 0, 0] p slices_S64x388x512x3_S64x384x512x3_0_2_0_0)))
    (mulf (tapAt 3 slices_S5_S1_3) (extractStridedSlice S64x384x512x3 ![0, 3, 0, 0] p slices_S64x388x512x3_S64x384x512x3_0_3_0_0)))
    (mulf (tapAt 4 slices_S5_S1_4) (extractStridedSlice S64x384x512x3 ![0, 4, 0, 0] p slices_S64x388x512x3_S64x384x512x3_0_4_0_0))

/-- The columns padded by reflection: columns 2, 1 in front, columns 510, 509 behind. -/
def padCols (y : FVec F S64x384x512x3 .f32) : FVec F S64x384x516x3 .f32 :=
  let front : FVec F S64x384x514x3 .f32 :=
    concatenate S64x384x514x3 2
      [⟨S64x384x2x3, Host.reverse [2] (extractStridedSlice S64x384x2x3 ![0, 0, 1, 0] y slices_S64x384x512x3_S64x384x2x3_0_0_1_0)⟩,
       ⟨S64x384x512x3, y⟩]
      concatenates_S64x384x2x3_S64x384x512x3_S64x384x514x3_d2
  concatenate S64x384x516x3 2
    [⟨S64x384x514x3, front⟩,
     ⟨S64x384x2x3, Host.reverse [2] (extractStridedSlice S64x384x2x3 ![0, 0, 511, 0] front slices_S64x384x514x3_S64x384x2x3_0_0_511_0)⟩]
    concatenates_S64x384x514x3_S64x384x2x3_S64x384x516x3_d2

/-- The five column windows of the padded array weighted and added up from the left, starting from zero. -/
def tapsCols (p : FVec F S64x384x516x3 .f32) : FVec F S64x384x512x3 .f32 :=
  addf (addf (addf (addf (addf zeros
    (mulf (tapAt 0 slices_S5_S1_0) (extractStridedSlice S64x384x512x3 ![0, 0, 0, 0] p slices_S64x384x516x3_S64x384x512x3_0_0_0_0)))
    (mulf (tapAt 1 slices_S5_S1_1) (extractStridedSlice S64x384x512x3 ![0, 0, 1, 0] p slices_S64x384x516x3_S64x384x512x3_0_0_1_0)))
    (mulf (tapAt 2 slices_S5_S1_2) (extractStridedSlice S64x384x512x3 ![0, 0, 2, 0] p slices_S64x384x516x3_S64x384x512x3_0_0_2_0)))
    (mulf (tapAt 3 slices_S5_S1_3) (extractStridedSlice S64x384x512x3 ![0, 0, 3, 0] p slices_S64x384x516x3_S64x384x512x3_0_0_3_0)))
    (mulf (tapAt 4 slices_S5_S1_4) (extractStridedSlice S64x384x512x3 ![0, 0, 4, 0] p slices_S64x384x516x3_S64x384x512x3_0_0_4_0))

/-- The whole reference: rows padded and blurred, then columns padded and blurred. -/
def blur (x : FVec F S64x384x512x3 .f32) : FVec F S64x384x512x3 .f32 :=
  tapsCols (padCols (tapsRows (padRows x)))

end Cert.ReferenceIdeal.Stages

end
-- ==== Proof.RefRun.lean ====
/-
  The run of the reference program, read back as one pure function of its argument.

  The reference program blurs a batch of images [64, 384, 512, 3] with a separable five-tap kernel under
  the reflect-101 border rule, first along the rows (axis 1), then along the columns (axis 2).  It is a
  straight line of 83 tensor operations once its two padding functions, and the reversal function each
  of them calls twice, are read at their call sites:

    *  the table of the five taps, and an integer zero the first padding takes and never reads      (2)
    *  PAD the rows: row 0 and rows 1..2 of the argument are cut out; rows 1..2 are reversed and put in
       front of the argument (386 rows); of that, row 385 and rows 383..384 are cut out; rows 383..384
       are reversed and put behind it (388 rows: rows 2, 1, 0, 1, ..., 383, 382, 381 of the argument) (8)
    *  TAPS along the rows: for k = 0..4, tap k is cut out of the table, read as a scalar and spread
       over a whole batch; the window of 384 rows at offset k of the padded batch is cut out and
       multiplied by it; the five products are added up from the left, starting from a batch of zeros
       (the zero scalar, its spreading and the first sum make the first window's group two longer)  (32)
    *  a second integer zero, for the second padding                                                (1)
    *  PAD the columns: the same eight operations along axis 2 on the rows' result (516 columns)     (8)
    *  TAPS along the columns: the same thirty-two operations along axis 2 on the padded result      (32)

  Every operation writes one buffer of its own from the whole contents of the buffers it reads, so the
  contents of the last buffer after the line are the operations' functions composed: the blur of the
  argument's contents at launch, stage by stage, and the argument's buffer is written by none of them.
-/
import proofs.«140527_j59450937312003_1_alg».proof.Proof.RefStages
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

/-! ## The operations, stage by stage -/

/-- The table of taps, the first padding's integer argument (never read), and the rows padded by reflection:
    row 0 and rows 1..2 cut out, rows 1..2 reversed and put in front; of that, row 385 and rows 383..384 cut
    out, rows 383..384 reversed and put behind. -/
abbrev opsPadRows : List (HloOp τ sig (Elt F)) :=
  [ nullary main_cst (fun i => FloatOps.ofBits .f32 (lit0 (S5.rowMajor i))),
    nullary main_c (constantI S_ 32 0#32),
    TRef.unary (.of main_arg0 : TRef sig ⟨S64x384x512x3, .f32⟩) main_call0.v0 (extractStridedSlice S64x1x512x3 ![0, 0, 0, 0] · slices_S64x384x512x3_S64x1x512x3_0_0_0_0),
    TRef.unary (.of main_arg0 : TRef sig ⟨S64x384x512x3, .f32⟩) main_call0.v1 (extractStridedSlice S64x2x512x3 ![0, 1, 0, 0] · slices_S64x384x512x3_S64x2x512x3_0_1_0_0),
    TRef.unary main_call0.v1 main_call0.call0.v0 (Host.reverse [1]),
    TRef.binary main_call0.call0.v0 (.of main_arg0 : TRef sig ⟨S64x384x512x3, .f32⟩) main_call0.v3 (fun a b => concatenate S64x386x512x3 1 [⟨S64x2x512x3, a⟩, ⟨S64x384x512x3, b⟩] concatenates_S64x2x512x3_S64x384x512x3_S64x386x512x3_d1),
    TRef.unary main_call0.v3 main_call0.v4 (extractStridedSlice S64x1x512x3 ![0, 385, 0, 0] · slices_S64x386x512x3_S64x1x512x3_0_385_0_0),
    TRef.unary main_call0.v3 main_call0.v5 (extractStridedSlice S64x2x512x3 ![0, 383, 0, 0] · slices_S64x386x512x3_S64x2x512x3_0_383_0_0),
    TRef.unary main_call0.v5 main_call0.call1.v0 (Host.reverse [1]),
    TRef.binary main_call0.v3 main_call0.call1.v0 main_call0.v7 (fun a b => concatenate S64x388x512x3 1 [⟨S64x386x512x3, a⟩, ⟨S64x2x512x3, b⟩] concatenates_S64x386x512x3_S64x2x512x3_S64x388x512x3_d1) ]

/-- The weighted sum along the rows: for each tap k = 0..4 the tap cut out of the table, read as a scalar and
    spread; the window of 384 rows at offset k of the padded batch; their product; the sum so far plus it
    (the first sum starts from a batch of zeros, a scalar zero spread). -/
abbrev opsTapsRows : List (HloOp τ sig (Elt F)) :=
  [ unary main_cst main_v1 (extractStridedSlice S1 ![0] · slices_S5_S1_0),
    reshape main_v1 main_v2 rfl shapeCasts_S1_S_,
    unary main_v0 main_v3 (extractStridedSlice S64x384x512x3 ![0, 0, 0, 0] · slices_S64x388x512x3_S64x384x512x3_0_0_0_0),
    unary main_v2 main_v4 (broadcastInDim S64x384x512x3 ![] bcast_S_S64x384x512x3),
    binary main_v4 main_v3 main_v5 mulf,
    nullary main_cst_0 (constant S_ .f32 0x00000000#32),
    unary main_cst_0 main_v6 (broadcastInDim S64x384x512x3 ![] bcast_S_S64x384x512x3),
    binary main_v6 main_v5 main_v7 addf,
    unary main_cst main_v8 (extractStridedSlice S1 ![1] · slices_S5_S1_1),
    reshape main_v8 main_v9 rfl shapeCasts_S1_S_,
    unary main_v0 main_v10 (extractStridedSlice S64x384x512x3 ![0, 1, 0, 0] · slices_S64x388x512x3_S64x384x512x3_0_1_0_0),
    unary main_v9 main_v11 (broadcastInDim S64x384x512x3 ![] bcast_S_S64x384x512x3),
    binary main_v11 main_v10 main_v12 mulf,
    binary main_v7 main_v12 main_v13 addf,
    unary main_cst main_v14 (extractStridedSlice S1 ![2] · slices_S5_S1_2),
    reshape main_v14 main_v15 rfl shapeCasts_S1_S_,
    unary main_v0 main_v16 (extractStridedSlice S64x384x512x3 ![0, 2, 0, 0] · slices_S64x388x512x3_S64x384x512x3_0_2_0_0),
    unary main_v15 main_v17 (broadcastInDim S64x384x512x3 ![] bcast_S_S64x384x512x3),
    binary main_v17 main_v16 main_v18 mulf,
    binary main_v13 main_v18 main_v19 addf,
    unary main_cst main_v20 (extractStridedSlice S1 ![3] · slices_S5_S1_3),
    reshape main_v20 main_v21 rfl shapeCasts_S1_S_,
    unary main_v0 main_v22 (extractStridedSlice S64x384x512x3 ![0, 3, 0, 0] · slices_S64x388x512x3_S64x384x512x3_0_3_0_0),
    unary main_v21 main_v23 (broadcastInDim S64x384x512x3 ![] bcast_S_S64x384x512x3),
    binary main_v23 main_v22 main_v24 mulf,
    binary main_v19 main_v24 main_v25 addf,
    unary main_cst main_v26 (extractStridedSlice S1 ![4] · slices_S5_S1_4),
    reshape main_v26 main_v27 rfl shapeCasts_S1_S_,
    unary main_v0 main_v28 (extractStridedSlice S64x384x512x3 ![0, 4, 0, 0] · slices_S64x388x512x3_S64x384x512x3_0_4_0_0),
    unary main_v27 main_v29 (broadcastInDim S64x384x512x3 ![] bcast_S_S64x384x512x3),
    binary main_v29 main_v28 main_v30 mulf,
    binary main_v25 main_v30 main_v31 addf ]

/-- The second padding's integer argument (never read), and the columns of the rows' result padded by
    reflection, as the rows were, along axis 2. -/
abbrev opsPadCols : List (HloOp τ sig (Elt F)) :=
  [ nullary main_c_1 (constantI S_ 32 0#32),
    TRef.unary (.of main_v31 : TRef sig ⟨S64x384x512x3, .f32⟩) main_call1.v0 (extractStridedSlice S64x384x1x3 ![0, 0, 0, 0] · slices_S64x384x512x3_S64x384x1x3_0_0_0_0),
    TRef.unary (.of main_v31 : TRef sig ⟨S64x384x512x3, .f32⟩) main_call1.v1 (extractStridedSlice S64x384x2x3 ![0, 0, 1, 0] · slices_S64x384x512x3_S64x384x2x3_0_0_1_0),
    TRef.unary main_call1.v1 main_call1.call0.v0 (Host.reverse [2]),
    TRef.binary main_call1.call0.v0 (.of main_v31 : TRef sig ⟨S64x384x512x3, .f32⟩) main_call1.v3 (fun a b => concatenate S64x384x514x3 2 [⟨S64x384x2x3, a⟩, ⟨S64x384x512x3, b⟩] concatenates_S64x384x2x3_S64x384x512x3_S64x384x514x3_d2),
    TRef.unary main_call1.v3 main_call1.v4 (extractStridedSlice S64x384x1x3 ![0, 0, 513, 0] · slices_S64x384x514x3_S64x384x1x3_0_0_513_0),
    TRef.unary main_call1.v3 main_call1.v5 (extractStridedSlice S64x384x2x3 ![0, 0, 511, 0] · slices_S64x384x514x3_S64x384x2x3_0_0_511_0),
    TRef.unary main_call1.v5 main_call1.call1.v0 (Host.reverse [2]),
    TRef.binary main_call1.v3 main_call1.call1.v0 main_call1.v7 (fun a b => concatenate S64x384x516x3 2 [⟨S64x384x514x3, a⟩, ⟨S64x384x2x3, b⟩] concatenates_S64x384x514x3_S64x384x2x3_S64x384x516x3_d2) ]

/-- The weighted sum along the columns: the same thirty-two operations along axis 2, on the padded result. -/
abbrev opsTapsCols : List (HloOp τ sig (Elt F)) :=
  [ unary main_cst main_v33 (extractStridedSlice S1 ![0] · slices_S5_S1_0),
    reshape main_v33 main_v34 rfl shapeCasts_S1_S_,
    unary main_v32 main_v35 (extractStridedSlice S64x384x512x3 ![0, 0, 0, 0] · slices_S64x384x516x3_S64x384x512x3_0_0_0_0),
    unary main_v34 main_v36 (broadcastInDim S64x384x512x3 ![] bcast_S_S64x384x512x3),
    binary main_v36 main_v35 main_v37 mulf,
    nullary main_cst_2 (constant S_ .f32 0x00000000#32),
    unary main_cst_2 main_v38 (broadcastInDim S64x384x512x3 ![] bcast_S_S64x384x512x3),
    binary main_v38 main_v37 main_v39 addf,
    unary main_cst main_v40 (extractStridedSlice S1 ![1] · slices_S5_S1_1),
    reshape main_v40 main_v41 rfl shapeCasts_S1_S_,
    unary main_v32 main_v42 (extractStridedSlice S64x384x512x3 ![0, 0, 1, 0] · slices_S64x384x516x3_S64x384x512x3_0_0_1_0),
    unary main_v41 main_v43 (broadcastInDim S64x384x512x3 ![] bcast_S_S64x384x512x3),
    binary main_v43 main_v42 main_v44 mulf,
    binary main_v39 main_v44 main_v45 addf,
    unary main_cst main_v46 (extractStridedSlice S1 ![2] · slices_S5_S1_2),
    reshape main_v46 main_v47 rfl shapeCasts_S1_S_,
    unary main_v32 main_v48 (extractStridedSlice S64x384x512x3 ![0, 0, 2, 0] · slices_S64x384x516x3_S64x384x512x3_0_0_2_0),
    unary main_v47 main_v49 (broadcastInDim S64x384x512x3 ![] bcast_S_S64x384x512x3),
    binary main_v49 main_v48 main_v50 mulf,
    binary main_v45 main_v50 main_v51 addf,
    unary main_cst main_v52 (extractStridedSlice S1 ![3] · slices_S5_S1_3),
    reshape main_v52 main_v53 rfl shapeCasts_S1_S_,
    unary main_v32 main_v54 (extractStridedSlice S64x384x512x3 ![0, 0, 3, 0] · slices_S64x384x516x3_S64x384x512x3_0_0_3_0),
    unary main_v53 main_v55 (broadcastInDim S64x384x512x3 ![] bcast_S_S64x384x512x3),
    binary main_v55 main_v54 main_v56 mulf,
    binary main_v51 main_v56 main_v57 addf,
    unary main_cst main_v58 (extractStridedSlice S1 ![4] · slices_S5_S1_4),
    reshape main_v58 main_v59 rfl shapeCasts_S1_S_,
    unary main_v32 main_v60 (extractStridedSlice S64x384x512x3 ![0, 0, 4, 0] · slices_S64x384x516x3_S64x384x512x3_0_0_4_0),
    unary main_v59 main_v61 (broadcastInDim S64x384x512x3 ![] bcast_S_S64x384x512x3),
    binary main_v61 main_v60 main_v62 mulf,
    binary main_v57 main_v62 main_v63 addf ]

/-- The program's 83 operations in order: the four stages one after the other. -/
abbrev ops : List (HloOp τ sig (Elt F)) := opsPadRows ++ (opsTapsRows ++ (opsPadCols ++ opsTapsCols))

-- eighty-three sequenced steps re-associated: the rewriting recurses once per step
set_option maxRecDepth 8192 in
set_option maxHeartbeats 4000000 in
/-- The program is that straight line: with the two padding functions and the two reversal functions
    read at their calls, both sides are one chain of steps once the sequencing is re-associated. -/
theorem main_eq (c : Dev nD) : main (F := F) c = seq ops := by
  simp only [main, main_part0, main_part1, fn_pad.body, fn_flip.body, fn_pad_0.body, fn_flip_1.body,
    ops, opsPadRows, opsTapsRows, opsPadCols, opsTapsCols, List.cons_append, List.nil_append, seq, bind_assoc, pure_bind]
  rfl

/-- No buffer of the program is scoped to a region. -/
theorem scopedRefs_eq : (Finset.univ.filter fun b : Ref sig .tc => b.isScoped) = ∅ := by decide
/-- The program has no semaphore. -/
theorem scopedSems_eq : (Finset.univ.filter fun sm : SemLoc sig => sm.isScoped .tc) = ∅ := by decide

/-! ## Every operation touches buffers of the one core only, and determines what it writes -/

theorem opsPadRows_sub : (opsPadRows : List (HloOp τ sig (Elt F))).Forall fun op => op.bufs ⊆ tcRefs τ sig :=
  ⟨nullary_bufs_sub .., nullary_bufs_sub .., unary_bufs_sub .., unary_bufs_sub .., unary_bufs_sub .., binary_bufs_sub ..,
    unary_bufs_sub .., unary_bufs_sub .., unary_bufs_sub .., binary_bufs_sub ..⟩

theorem opsTapsRows_sub : (opsTapsRows : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..⟩

theorem opsPadCols_sub : (opsPadCols : List (HloOp τ sig (Elt F))).Forall fun op => op.bufs ⊆ tcRefs τ sig :=
  ⟨nullary_bufs_sub .., unary_bufs_sub .., unary_bufs_sub .., unary_bufs_sub .., binary_bufs_sub ..,
    unary_bufs_sub .., unary_bufs_sub .., unary_bufs_sub .., binary_bufs_sub ..⟩

theorem opsTapsCols_sub : (opsTapsCols : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., unary_bufs_sub .., binary_bufs_sub .., binary_bufs_sub ..⟩

/-- A property of every operation of each of four lists holds of every operation of the four put together. -/
theorem forall_four {α : Type} {p : α → Prop} {l₁ l₂ l₃ l₄ : List α} (h₁ : ∀ a ∈ l₁, p a) (h₂ : ∀ a ∈ l₂, p a)
    (h₃ : ∀ a ∈ l₃, p a) (h₄ : ∀ a ∈ l₄, p a) : ∀ a ∈ l₁ ++ (l₂ ++ (l₃ ++ l₄)), p a := by
  intro a h
  rcases List.mem_append.1 h with h | h
  · exact h₁ a h
  rcases List.mem_append.1 h with h | h
  · exact h₂ a h
  rcases List.mem_append.1 h with h | h
  · exact h₃ a h
  · exact h₄ a h

theorem ops_sub : (ops : List (HloOp τ sig (Elt F))).Forall fun op => op.bufs ⊆ tcRefs τ sig :=
  List.forall_iff_forall_mem.2 (forall_four (List.forall_iff_forall_mem.1 opsPadRows_sub) (List.forall_iff_forall_mem.1 opsTapsRows_sub)
    (List.forall_iff_forall_mem.1 opsPadCols_sub) (List.forall_iff_forall_mem.1 opsTapsCols_sub))

theorem opsPadRows_fresh : ∀ op ∈ (opsPadRows : List (HloOp τ sig (Elt F))), op.fresh = ∅ := by
  intro _ h; (repeat (cases h with | head => rfl | tail _ h => ?_)); exact nomatch h
theorem opsTapsRows_fresh : ∀ op ∈ (opsTapsRows : List (HloOp τ sig (Elt F))), op.fresh = ∅ := by
  intro _ h; (repeat (cases h with | head => rfl | tail _ h => ?_)); exact nomatch h
theorem opsPadCols_fresh : ∀ op ∈ (opsPadCols : List (HloOp τ sig (Elt F))), op.fresh = ∅ := by
  intro _ h; (repeat (cases h with | head => rfl | tail _ h => ?_)); exact nomatch h
theorem opsTapsCols_fresh : ∀ op ∈ (opsTapsCols : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  forall_four opsPadRows_fresh opsTapsRows_fresh opsPadCols_fresh opsTapsCols_fresh

/-! ## What each stage leaves, for any contents before it

The contents after a stage, at the buffer the next stage reads, are the stage's function of the contents
before it at the buffers the stage reads; the table and the argument, which later stages or the claim
read, are kept by every stage after the first. -/

/-- The contents after two lists run one after the other. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

theorem padRows_eq (V : Valuation τ sig (Elt F)) :
    after opsPadRows V (main_v0 : DevRef τ sig) = Stages.padRows (V (main_arg0 : DevRef τ sig)) := by
  after_results
  rfl
theorem padRows_table (V : Valuation τ sig (Elt F)) :
    after opsPadRows V (main_cst : DevRef τ sig) = Stages.table := by
  after_results
  rfl
theorem padRows_arg0 (V : Valuation τ sig (Elt F)) :
    after opsPadRows V (main_arg0 : DevRef τ sig) = V (main_arg0 : DevRef τ sig) := by
  after_results

theorem tapsRows_eq (V : Valuation τ sig (Elt F)) (hT : V (main_cst : DevRef τ sig) = Stages.table) :
    after opsTapsRows V (main_v31 : DevRef τ sig) = Stages.tapsRows (V (main_v0 : DevRef τ sig)) := by
  after_results_simp
  rw [hT]
  rfl
theorem tapsRows_table (V : Valuation τ sig (Elt F)) :
    after opsTapsRows V (main_cst : DevRef τ sig) = V (main_cst : DevRef τ sig) := by
  after_results_simp
theorem tapsRows_arg0 (V : Valuation τ sig (Elt F)) :
    after opsTapsRows V (main_arg0 : DevRef τ sig) = V (main_arg0 : DevRef τ sig) := by
  after_results_simp

theorem padCols_eq (V : Valuation τ sig (Elt F)) :
    after opsPadCols V (main_v32 : DevRef τ sig) = Stages.padCols (V (main_v31 : DevRef τ sig)) := by
  after_results
  rfl
theorem padCols_table (V : Valuation τ sig (Elt F)) :
    after opsPadCols V (main_cst : DevRef τ sig) = V (main_cst : DevRef τ sig) := by
  after_results
theorem padCols_arg0 (V : Valuation τ sig (Elt F)) :
    after opsPadCols V (main_arg0 : DevRef τ sig) = V (main_arg0 : DevRef τ sig) := by
  after_results

theorem tapsCols_eq (V : Valuation τ sig (Elt F)) (hT : V (main_cst : DevRef τ sig) = Stages.table) :
    after opsTapsCols V (main_v63 : DevRef τ sig) = Stages.tapsCols (V (main_v32 : DevRef τ sig)) := by
  after_results_simp
  rw [hT]
  rfl
theorem tapsCols_arg0 (V : Valuation τ sig (Elt F)) :
    after opsTapsCols V (main_arg0 : DevRef τ sig) = V (main_arg0 : DevRef τ sig) := by
  after_results_simp

/-! ## The whole line -/

/-- After the whole line the last buffer holds the blur of what the argument's buffer held before it. -/
theorem out_eq (V : Valuation τ sig (Elt F)) :
    after ops V (main_v63 : DevRef τ sig) = Stages.blur (V (main_arg0 : DevRef τ sig)) := by
  have h1 := padRows_table V
  have h3 : after opsPadCols (after opsTapsRows (after opsPadRows V)) (main_cst : DevRef τ sig) = Stages.table := by
    rw [padCols_table, tapsRows_table, h1]
  show after (opsPadRows ++ (opsTapsRows ++ (opsPadCols ++ opsTapsCols))) V _ = _
  rw [after_concat, after_concat, after_concat, tapsCols_eq _ h3, padCols_eq, tapsRows_eq _ h1, padRows_eq]
  rfl

/-- The whole line writes the argument's buffer nowhere. -/
theorem arg0_eq (V : Valuation τ sig (Elt F)) :
    after ops V (main_arg0 : DevRef τ sig) = V (main_arg0 : DevRef τ sig) := by
  show after (opsPadRows ++ (opsTapsRows ++ (opsPadCols ++ opsTapsCols))) V _ = _
  rw [after_concat, after_concat, after_concat, tapsCols_arg0, padCols_arg0, tapsRows_arg0, padRows_arg0]

/-- On the one device, for any float values, from any memory with zero counters: every weakly fair execution
    of the program terminates with the last buffer at the blur of the argument's contents at launch, and the
    argument's buffer as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Cert.ReferenceIdeal.Stages.blur (m ((c.tc : Thread nD τ).loc main_arg0))
      ∧ r.2.mem ((c.tc : Thread nD τ).loc main_arg0) = m ((c.tc : Thread nD τ).loc main_arg0) :=
  (θ_run defs _ _).mono (fun _ h c => ⟨(h c main_v63).trans (out_eq _), (h c main_arg0).trans (arg0_eq _)⟩)
    (run_seq scopedRefs_eq scopedSems_eq defs main (fun _ => ops) main_eq (fun _ => ops_sub) m ρ (fun _ => ops_fresh))

end Cert.ReferenceIdeal.HandRun

end
-- ==== Proof.RefStagesValue.lean ====
/-
  The reference's stages read at an index, at the ideal instance.

  For a batch [64, 384, 512, 3]:
    * the padded rows at (b, p, w, c) are the batch at (b, reflRow p, w, c).  The program pads in two
      steps: FRONT = (rows 1 … 2 reversed) followed by the batch, 386 rows, whose row p reads row
      2 - p for p < 2 and row p - 2 after; then FRONT followed by (its rows 383 … 384 reversed), whose
      rows 386 and 387 read FRONT's rows 384 and 383, that is rows 382 and 381 of the batch;
    * the weighted sum over rows is `taps5` of the padded batch at rows h … h+4: the table's entry k
      is the tap t_k, and the sum's leading array of zeros adds nothing (0 + a = a on the extended reals);
    * the same two statements along the columns (axis 2, extent 512).
  Together the reference's function is the specification's blur (`blur_eq`).
-/
import proofs.«140527_j59450937312003_1_alg».proof.Proof.RefStages
import proofs.«140527_j59450937312003_1_alg».proof.Proof.BlurSpec
import proofs.«140527_j59450937312003_1_alg».proof.Proof.LibConcatAt
import Idealize.ShloMosaic.Lib.ValueLayout
import Idealize.ShloMosaic.PureOps.Ideal.Laws

noncomputable section

namespace Cert.ReferenceIdeal.StagesValue

open Cert.ReferenceIdeal Cert.ReferenceIdeal.Stages Cert.ReferenceIdeal.Facts₀ Idealize.ShloMosaic Idealize.ShloMosaic.ValueIdx Cert.Blur

/-! ## The taps and the zeros -/

/-- The table at entry `k` is the word listed there. -/
theorem table_at (k : Fin 5) : table (F := Ideal) (ix1 k) = Ideal.ofBits .f32 (lit0 k) := by
  unfold table
  have e : (S5.rowMajor (ix1 k) : Fin 5) = k := Fin.ext (Shape.rowMajor_val_one (ix1 k))
  rw [Ideal.ofBits_def]
  exact congrArg (fun j => Ideal.ofBits .f32 (lit0 j)) e

/-- Entry `k` cut out of the table, read at its one index. -/
theorem slice_table (k : ℕ) (hk : k < 5) (h : S5.Slices ![k] S1) (j : S1.Idx) :
    extractStridedSlice S1 ![k] (table (F := Ideal)) h j = Ideal.ofBits .f32 (lit0 ⟨k, hk⟩) := by
  have h1 : (j 0).val < 1 := (j 0).isLt
  have e := extractStridedSlice_apply ![k] (table (F := Ideal)) h j (ix1 (⟨k, hk⟩ : Fin 5)) (fun a => by
    match a with
    | ⟨0, _⟩ =>
      show k = k + (j 0).val
      omega)
  rw [e]
  exact table_at _

/-- A tap spread over the batch reads the table's entry everywhere. -/
theorem tapAt_apply (k : ℕ) (hk : k < 5) (h : S5.Slices ![k] S1) (i : S64x384x512x3.Idx) :
    tapAt (F := Ideal) k h i = Ideal.ofBits .f32 (lit0 ⟨k, hk⟩) := by
  unfold tapAt broadcastInDim shapeCast
  exact slice_table k hk h _

theorem tap0 (i : S64x384x512x3.Idx) : tapAt (F := Ideal) 0 slices_S5_S1_0 i = t0 :=
  (tapAt_apply 0 (by omega) _ i).trans (congrArg (Ideal.ofBits .f32) (show lit0 (⟨0, by omega⟩ : Fin 5) = 0x3D90EDF6#32 from rfl))
theorem tap1 (i : S64x384x512x3.Idx) : tapAt (F := Ideal) 1 slices_S5_S1_1 i = t1 :=
  (tapAt_apply 1 (by omega) _ i).trans (congrArg (Ideal.ofBits .f32) (show lit0 (⟨1, by omega⟩ : Fin 5) = 0x3E7A53D4#32 from rfl))
theorem tap2 (i : S64x384x512x3.Idx) : tapAt (F := Ideal) 2 slices_S5_S1_2 i = t2 :=
  (tapAt_apply 2 (by omega) _ i).trans (congrArg (Ideal.ofBits .f32) (show lit0 (⟨2, by omega⟩ : Fin 5) = 0x3EBD3532#32 from rfl))
theorem tap3 (i : S64x384x512x3.Idx) : tapAt (F := Ideal) 3 slices_S5_S1_3 i = t1 :=
  (tapAt_apply 3 (by omega) _ i).trans (congrArg (Ideal.ofBits .f32) (show lit0 (⟨3, by omega⟩ : Fin 5) = 0x3E7A53D4#32 from rfl))
theorem tap4 (i : S64x384x512x3.Idx) : tapAt (F := Ideal) 4 slices_S5_S1_4 i = t0 :=
  (tapAt_apply 4 (by omega) _ i).trans (congrArg (Ideal.ofBits .f32) (show lit0 (⟨4, by omega⟩ : Fin 5) = 0x3D90EDF6#32 from rfl))

/-- The array of zeros is zero everywhere. -/
theorem zeros_apply (i : S64x384x512x3.Idx) : zeros (F := Ideal) i = 0 := by
  show Ideal.ofBits .f32 0x00000000#32 = 0
  exact Ideal.ofBits_zero_f32

/-! ## The rows -/

/-- The first padding step: two reflected rows in front. -/
def frontRows (x : FVec Ideal S64x384x512x3 .f32) : FVec Ideal S64x386x512x3 .f32 :=
  concatenate S64x386x512x3 1
    [⟨S64x2x512x3, Host.reverse [1] (extractStridedSlice S64x2x512x3 ![0, 1, 0, 0] x slices_S64x384x512x3_S64x2x512x3_0_1_0_0)⟩,
     ⟨S64x384x512x3, x⟩]
    concatenates_S64x2x512x3_S64x384x512x3_S64x386x512x3_d1

theorem frontRows_apply (x : FVec Ideal S64x384x512x3 .f32) (b : Fin 64) (p : Fin 386) (w : Fin 512) (c : Fin 3) :
    frontRows x (ix4 b p w c) = x (ix4 b (reflRow ⟨p.val, by omega⟩) w c) := by
  have hp := p.isLt
  unfold frontRows
  by_cases h0 : p.val < 2
  · refine (Cert.ConcatAt.axis1_left _ _ _ b p w c (⟨p.val, h0⟩ : Fin 2) rfl).trans ?_
    refine (Cert.ConcatAt.reverse_axis1 _ b (⟨p.val, h0⟩ : Fin 2) w c).trans ?_
    refine (slice4_axis1_apply 1 x _ b (Fin.rev (⟨p.val, h0⟩ : Fin 2)) w c (⟨2 - p.val, by omega⟩ : Fin 384)
      (by show 2 - p.val = 1 + (2 - (p.val + 1)); omega)).trans ?_
    exact congrArg (fun r => x (ix4 b r w c)) (Fin.ext (by rw [reflRow_front _ h0]))
  · refine (Cert.ConcatAt.axis1_right _ _ _ b p w c (⟨p.val - 2, by omega⟩ : Fin 384) (by show p.val - 2 + 2 = p.val; omega)).trans ?_
    exact congrArg (fun r => x (ix4 b r w c)) (Fin.ext (by rw [reflRow_mid _ (by show 2 ≤ p.val; omega) (by show p.val < 386; omega)]))

theorem padRows_eq (x : FVec Ideal S64x384x512x3 .f32) :
    padRows x = concatenate S64x388x512x3 1
      [⟨S64x386x512x3, frontRows x⟩,
       ⟨S64x2x512x3, Host.reverse [1] (extractStridedSlice S64x2x512x3 ![0, 383, 0, 0] (frontRows x) slices_S64x386x512x3_S64x2x512x3_0_383_0_0)⟩]
      concatenates_S64x386x512x3_S64x2x512x3_S64x388x512x3_d1 := rfl

/-- The padded rows read the reflected row. -/
theorem padRows_apply (x : FVec Ideal S64x384x512x3 .f32) (b : Fin 64) (p : Fin 388) (w : Fin 512) (c : Fin 3) :
    padRows x (ix4 b p w c) = x (ix4 b (reflRow p) w c) := by
  have hp := p.isLt
  rw [padRows_eq]
  by_cases h0 : p.val < 386
  · refine (Cert.ConcatAt.axis1_left _ _ _ b p w c (⟨p.val, h0⟩ : Fin 386) rfl).trans ?_
    exact frontRows_apply x b ⟨p.val, h0⟩ w c
  · refine (Cert.ConcatAt.axis1_right _ _ _ b p w c (⟨p.val - 386, by omega⟩ : Fin 2) (by show p.val - 386 + 386 = p.val; omega)).trans ?_
    refine (Cert.ConcatAt.reverse_axis1 _ b (⟨p.val - 386, by omega⟩ : Fin 2) w c).trans ?_
    refine (slice4_axis1_apply 383 (frontRows x) _ b (Fin.rev (⟨p.val - 386, by omega⟩ : Fin 2)) w c (⟨770 - p.val, by omega⟩ : Fin 386)
      (by show 770 - p.val = 383 + (2 - (p.val - 386 + 1)); omega)).trans ?_
    refine (frontRows_apply x b ⟨770 - p.val, by omega⟩ w c).trans ?_
    exact congrArg (fun r => x (ix4 b r w c)) (Fin.ext (by
      rw [reflRow_mid _ (by show 2 ≤ 770 - p.val; omega) (by show 770 - p.val < 386; omega), reflRow_back p (by omega)]
      show 770 - p.val - 2 = 768 - p.val; omega))

/-- The weighted sum over rows reads the padded batch at rows h … h+4. -/
theorem tapsRows_apply (P : FVec Ideal S64x388x512x3 .f32) (b : Fin 64) (h : Fin 384) (w : Fin 512) (c : Fin 3) :
    tapsRows P (ix4 b h w c)
      = taps5 (P (ix4 b (rowAt h 0 (by omega)) w c)) (P (ix4 b (rowAt h 1 (by omega)) w c)) (P (ix4 b (rowAt h 2 (by omega)) w c))
          (P (ix4 b (rowAt h 3 (by omega)) w c)) (P (ix4 b (rowAt h 4 (by omega)) w c)) := by
  have e0 := slice4_axis1_apply 0 P slices_S64x388x512x3_S64x384x512x3_0_0_0_0 b h w c (rowAt h 0 (by omega)) (by show h.val + 0 = 0 + h.val; omega)
  have e1 := slice4_axis1_apply 1 P slices_S64x388x512x3_S64x384x512x3_0_1_0_0 b h w c (rowAt h 1 (by omega)) (by show h.val + 1 = 1 + h.val; omega)
  have e2 := slice4_axis1_apply 2 P slices_S64x388x512x3_S64x384x512x3_0_2_0_0 b h w c (rowAt h 2 (by omega)) (by show h.val + 2 = 2 + h.val; omega)
  have e3 := slice4_axis1_apply 3 P slices_S64x388x512x3_S64x384x512x3_0_3_0_0 b h w c (rowAt h 3 (by omega)) (by show h.val + 3 = 3 + h.val; omega)
  have e4 := slice4_axis1_apply 4 P slices_S64x388x512x3_S64x384x512x3_0_4_0_0 b h w c (rowAt h 4 (by omega)) (by show h.val + 4 = 4 + h.val; omega)
  unfold tapsRows
  simp only [addf_apply, mulf_apply, e0, e1, e2, e3, e4, zeros_apply, tap0, tap1, tap2, tap3, tap4, zero_add]
  rfl

/-! ## The columns -/

/-- The first padding step: two reflected columns in front. -/
def frontCols (y : FVec Ideal S64x384x512x3 .f32) : FVec Ideal S64x384x514x3 .f32 :=
  concatenate S64x384x514x3 2
    [⟨S64x384x2x3, Host.reverse [2] (extractStridedSlice S64x384x2x3 ![0, 0, 1, 0] y slices_S64x384x512x3_S64x384x2x3_0_0_1_0)⟩,
     ⟨S64x384x512x3, y⟩]
    concatenates_S64x384x2x3_S64x384x512x3_S64x384x514x3_d2

theorem frontCols_apply (y : FVec Ideal S64x384x512x3 .f32) (b : Fin 64) (h : Fin 384) (q : Fin 514) (c : Fin 3) :
    frontCols y (ix4 b h q c) = y (ix4 b h (reflCol ⟨q.val, by omega⟩) c) := by
  have hq := q.isLt
  unfold frontCols
  by_cases h0 : q.val < 2
  · refine (Cert.ConcatAt.axis2_left _ _ _ b h q c (⟨q.val, h0⟩ : Fin 2) rfl).trans ?_
    refine (Cert.ConcatAt.reverse_axis2 _ b h (⟨q.val, h0⟩ : Fin 2) c).trans ?_
    refine (slice4_axis2_apply 1 y _ b h (Fin.rev (⟨q.val, h0⟩ : Fin 2)) c (⟨2 - q.val, by omega⟩ : Fin 512)
      (by show 2 - q.val = 1 + (2 - (q.val + 1)); omega)).trans ?_
    exact congrArg (fun r => y (ix4 b h r c)) (Fin.ext (by rw [reflCol_front _ h0]))
  · refine (Cert.ConcatAt.axis2_right _ _ _ b h q c (⟨q.val - 2, by omega⟩ : Fin 512) (by show q.val - 2 + 2 = q.val; omega)).trans ?_
    exact congrArg (fun r => y (ix4 b h r c)) (Fin.ext (by rw [reflCol_mid _ (by show 2 ≤ q.val; omega) (by show q.val < 514; omega)]))

theorem padCols_eq (y : FVec Ideal S64x384x512x3 .f32) :
    padCols y = concatenate S64x384x516x3 2
      [⟨S64x384x514x3, frontCols y⟩,
       ⟨S64x384x2x3, Host.reverse [2] (extractStridedSlice S64x384x2x3 ![0, 0, 511, 0] (frontCols y) slices_S64x384x514x3_S64x384x2x3_0_0_511_0)⟩]
      concatenates_S64x384x514x3_S64x384x2x3_S64x384x516x3_d2 := rfl

/-- The padded columns read the reflected column. -/
theorem padCols_apply (y : FVec Ideal S64x384x512x3 .f32) (b : Fin 64) (h : Fin 384) (q : Fin 516) (c : Fin 3) :
    padCols y (ix4 b h q c) = y (ix4 b h (reflCol q) c) := by
  have hq := q.isLt
  rw [padCols_eq]
  by_cases h0 : q.val < 514
  · refine (Cert.ConcatAt.axis2_left _ _ _ b h q c (⟨q.val, h0⟩ : Fin 514) rfl).trans ?_
    exact frontCols_apply y b h ⟨q.val, h0⟩ c
  · refine (Cert.ConcatAt.axis2_right _ _ _ b h q c (⟨q.val - 514, by omega⟩ : Fin 2) (by show q.val - 514 + 514 = q.val; omega)).trans ?_
    refine (Cert.ConcatAt.reverse_axis2 _ b h (⟨q.val - 514, by omega⟩ : Fin 2) c).trans ?_
    refine (slice4_axis2_apply 511 (frontCols y) _ b h (Fin.rev (⟨q.val - 514, by omega⟩ : Fin 2)) c (⟨1026 - q.val, by omega⟩ : Fin 514)
      (by show 1026 - q.val = 511 + (2 - (q.val - 514 + 1)); omega)).trans ?_
    refine (frontCols_apply y b h ⟨1026 - q.val, by omega⟩ c).trans ?_
    exact congrArg (fun r => y (ix4 b h r c)) (Fin.ext (by
      rw [reflCol_mid _ (by show 2 ≤ 1026 - q.val; omega) (by show 1026 - q.val < 514; omega), reflCol_back q (by omega)]
      show 1026 - q.val - 2 = 1024 - q.val; omega))

/-- The weighted sum over columns reads the padded batch at columns w … w+4. -/
theorem tapsCols_apply (P : FVec Ideal S64x384x516x3 .f32) (b : Fin 64) (h : Fin 384) (w : Fin 512) (c : Fin 3) :
    tapsCols P (ix4 b h w c)
      = taps5 (P (ix4 b h (colAt w 0 (by omega)) c)) (P (ix4 b h (colAt w 1 (by omega)) c)) (P (ix4 b h (colAt w 2 (by omega)) c))
          (P (ix4 b h (colAt w 3 (by omega)) c)) (P (ix4 b h (colAt w 4 (by omega)) c)) := by
  have e0 := slice4_axis2_apply 0 P slices_S64x384x516x3_S64x384x512x3_0_0_0_0 b h w c (colAt w 0 (by omega)) (by show w.val + 0 = 0 + w.val; omega)
  have e1 := slice4_axis2_apply 1 P slices_S64x384x516x3_S64x384x512x3_0_0_1_0 b h w c (colAt w 1 (by omega)) (by show w.val + 1 = 1 + w.val; omega)
  have e2 := slice4_axis2_apply 2 P slices_S64x384x516x3_S64x384x512x3_0_0_2_0 b h w c (colAt w 2 (by omega)) (by show w.val + 2 = 2 + w.val; omega)
  have e3 := slice4_axis2_apply 3 P slices_S64x384x516x3_S64x384x512x3_0_0_3_0 b h w c (colAt w 3 (by omega)) (by show w.val + 3 = 3 + w.val; omega)
  have e4 := slice4_axis2_apply 4 P slices_S64x384x516x3_S64x384x512x3_0_0_4_0 b h w c (colAt w 4 (by omega)) (by show w.val + 4 = 4 + w.val; omega)
  unfold tapsCols
  simp only [addf_apply, mulf_apply, e0, e1, e2, e3, e4, zeros_apply, tap0, tap1, tap2, tap3, tap4, zero_add]
  rfl

/-! ## The whole reference -/

/-- The reference's function is the blur. -/
theorem blur_eq (x : FVec Ideal S64x384x512x3 .f32) : Stages.blur x = Cert.Blur.blur x := by
  funext i
  obtain ⟨b, h, w, c, rfl⟩ : ∃ (b : Fin 64) (h : Fin 384) (w : Fin 512) (c : Fin 3), i = ix4 b h w c :=
    ⟨i 0, i 1, i 2, i 3, eq_ix4 i⟩
  unfold Stages.blur
  rw [tapsCols_apply]
  simp only [padCols_apply, tapsRows_apply, padRows_apply]
  rfl

end Cert.ReferenceIdeal.StagesValue

end
-- ==== Proof.lean ====
/-
  The certificate of a 5×5 separable Gaussian blur with the reflect-101 border: a Pallas kernel that blurs
  one image per grid point in a lane-dense layout, against the jnp reference that pads and sums
  slices of the whole batch.

  Both programs compute, for every image b, row h, column w and channel c,
      out = Σ_k t_k · y(b, h, refl(w + k), c),      y(b, h, w, c) = Σ_k t_k · x(b, refl(h + k), w, c),
  the five taps t_0 … t_4 the same five binary words in both texts, each sum added from the left in the
  same order, and refl the reflect-101 rule (position p of an axis padded by two on each side reads
  2 - p, p - 2 or 2n - p).  They differ in three ways, none of which changes an extended real:
    * the kernel views a row's (column, channel) pairs as 1536 lanes, so a column step is three lanes
      and the padding pieces are lane triples (`Cert.Blur.lanes_eq`: the blur in lanes is the blur in pixels);
    * the kernel pads by one five-piece concatenation, the reference by slices, reversals and two
      two-piece concatenations; both read the reflected position (the `padRows_apply` / `padCols_apply` lemmas);
    * the reference's sums start from an array of zeros, and 0 + a = a on the extended reals.
  No law that needs finiteness is used, so the precondition is never opened.

  The kernel's frames are the generated ones; the idealization rewrote nothing, so `preserves` is trivial;
  the value of the idealized kernel program is read off its generated frame run (`Cert.KernelIdeal.BlurRun.run`),
  the reference's off its run as a list of host operations (`Cert.ReferenceIdeal.HandRun.run`), and both end at
  `Cert.Blur.blur` of the argument.
-/
import proofs.«140527_j59450937312003_1_alg».proof.Defs
import proofs.«140527_j59450937312003_1_alg».proof.Proof.Gen.Kernel
import proofs.«140527_j59450937312003_1_alg».proof.Proof.Gen.Kernel.Frame
import proofs.«140527_j59450937312003_1_alg».proof.Proof.Gen.KernelIdeal
import proofs.«140527_j59450937312003_1_alg».proof.Proof.Gen.KernelIdeal.Frame
import proofs.«140527_j59450937312003_1_alg».proof.Proof.Gen.ReferenceIdeal
import proofs.«140527_j59450937312003_1_alg».proof.Proof.Gen.Pre_finite_inputs
import proofs.«140527_j59450937312003_1_alg».proof.Proof.KernelRun
import proofs.«140527_j59450937312003_1_alg».proof.Proof.RefRun
import proofs.«140527_j59450937312003_1_alg».proof.Proof.RefStagesValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the argument both idealized programs end with the result at the blur of that argument. -/
theorem algebraic : Cert.algebraic_KernelIdeal_ReferenceIdeal := by
  intro m ρ m' ρ' _ hagree
  refine ⟨fun c => Cert.Blur.blur (m ((c.tc : Thread Cert.KernelIdeal.nD Cert.KernelIdeal.τ).loc Cert.KernelIdeal.main_arg0)),
    Cert.KernelIdeal.BlurRun.run m ρ, ?_⟩
  refine (θ_run Cert.ReferenceIdeal.defs _ _).mono (fun _ h c => ⟨?_, (h c).2⟩)
    (Cert.ReferenceIdeal.HandRun.run (F := Ideal) m' ρ')
  rw [(h c).1, Cert.ReferenceIdeal.StagesValue.blur_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
